-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S6144x3 : Shape := ⟨2, ![6144, 3]⟩
abbrev S3 : Shape := ⟨1, ![3]⟩
abbrev S6144x2 : Shape := ⟨2, ![6144, 2]⟩
abbrev S2 : Shape := ⟨1, ![2]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S6144x3 : S_.BroadcastsInDim S6144x3 (![] : Fin 0 → Fin S6144x3.rank)
  reducesTo_S6144x3_S_d0_1 : S6144x3.ReducesTo [0, 1] S_
  bcast_S_S3 : S_.BroadcastsInDim S3 (![] : Fin 0 → Fin S3.rank)
  reducesTo_S3_S_d0 : S3.ReducesTo [0] S_
  bcast_S_S6144x2 : S_.BroadcastsInDim S6144x2 (![] : Fin 0 → Fin S6144x2.rank)
  reducesTo_S6144x2_S_d0_1 : S6144x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S3 .f32) (main_arg5 : FVec F S6144x2 .f32) (main_arg6 : FVec F S2 .f32) (main_v13 : IVec S_ 1) (main_v16 : IVec S6144x3 1) : IVec S_ 1 :=
  let main_c_5 : IVec S_ 1 := constantI S_ 1 1#1
  let main_v17 : IVec S_ 1 := (fun x v => Host.reduce IntOp.andi x v reducesTo_S6144x3_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S6144x2 .f32 := Host.absf main_arg5
  let main_cst_8 : FVec F S_ .f32 := constant S_ .f32 0x7F800000#32
  let main_v25 : FVec F S6144x2 .f32 := broadcastInDim S6144x2 ![] bcast_S_S6144x2 main_cst_8
  let main_v26 : IVec S6144x2 1 := cmpf .olt main_v24 main_v25
  let main_c_9 : IVec S_ 1 := constantI S_ 1 1#1
  let main_v27 : IVec S_ 1 := (fun x v => Host.reduce IntOp.andi x v reducesTo_S6144x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S16384x2048 .f32) (main_arg1 : FVec F S16384x2048 .f32) (main_arg2 : FVec F S16384x2048 .f32) (main_arg3 : FVec F S6144x3 .f32) (main_arg4 : FVec F S3 .f32) (main_arg5 : FVec F S6144x2 .f32) (main_arg6 : FVec F S2 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := Host.absf main_arg2
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  let main_v14 : FVec F S6144x3 .f32 := Host.absf main_arg3
  let main_cst_4 : FVec F S_ .f32 := constant S_ .f32 0x7F800000#32
  let main_v15 : FVec F S6144x3 .f32 := broadcastInDim S6144x3 ![] bcast_S_S6144x3 main_cst_4
  let main_v16 : IVec S6144x3 1 := cmpf .olt main_v14 main_v15
  fn_part1 (F := F) main_arg4 main_arg5 main_arg6 main_v13 main_v16
-- ==== Kernel.lean ====
abbrev S16384x2048 : Shape := ⟨2, ![16384, 2048]⟩
abbrev S6144x3 : Shape := ⟨2, ![6144, 3]⟩
abbrev S3 : Shape := ⟨1, ![3]⟩
abbrev S6144x2 : Shape := ⟨2, ![6144, 2]⟩
abbrev S2 : Shape := ⟨1, ![2]⟩
abbrev S2048x3 : Shape := ⟨2, ![2048, 3]⟩
abbrev S2048x2 : Shape := ⟨2, ![2048, 2]⟩
abbrev S2048x5 : Shape := ⟨2, ![2048, 5]⟩
abbrev S2048x15 : Shape := ⟨2, ![2048, 15]⟩
abbrev S1x3 : Shape := ⟨2, ![1, 3]⟩
abbrev S1x2 : Shape := ⟨2, ![1, 2]⟩
abbrev S16384x2 : Shape := ⟨2, ![16384, 2]⟩
abbrev S512x2048 : Shape := ⟨2, ![512, 2048]⟩
abbrev S512x2 : Shape := ⟨2, ![512, 2]⟩
abbrev S512x5 : Shape := ⟨2, ![512, 5]⟩
abbrev S512x3 : Shape := ⟨2, ![512, 3]⟩
abbrev S512 : Shape := ⟨1, ![512]⟩
abbrev S512x1 : Shape := ⟨2, ![512, 1]⟩

abbrev nBuf : Space → Nat
  | .hbm => 20
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S6144x3, .f32⟩
  | .hbm, ⟨4, _⟩ => ⟨S3, .f32⟩
  | .hbm, ⟨5, _⟩ => ⟨S6144x2, .f32⟩
  | .hbm, ⟨6, _⟩ => ⟨S2, .f32⟩
  | .hbm, ⟨7, _⟩ => ⟨S2048x3, .f32⟩
  | .hbm, ⟨8, _⟩ => ⟨S2048x3, .f32⟩
  | .hbm, ⟨9, _⟩ => ⟨S2048x3, .f32⟩
  | .hbm, ⟨10, _⟩ => ⟨S2048x2, .f32⟩
  | .hbm, ⟨11, _⟩ => ⟨S2048x2, .f32⟩
  | .hbm, ⟨12, _⟩ => ⟨S2048x2, .f32⟩
  | .hbm, ⟨13, _⟩ => ⟨S2048x5, .f32⟩
  | .hbm, ⟨14, _⟩ => ⟨S2048x5, .f32⟩
  | .hbm, ⟨15, _⟩ => ⟨S2048x5, .f32⟩
  | .hbm, ⟨16, _⟩ => ⟨S2048x15, .f32⟩
  | .hbm, ⟨17, _⟩ => ⟨S1x3, .f32⟩
  | .hbm, ⟨18, _⟩ => ⟨S1x2, .f32⟩
  | .hbm, ⟨19, _⟩ => ⟨S16384x2, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S2048x15, .f32⟩
  | .local _ .vmem, ⟨7, _⟩ => ⟨S1x3, .f32⟩
  | .local _ .vmem, ⟨8, _⟩ => ⟨S1x2, .f32⟩
  | .local _ .vmem, ⟨9, _⟩ => ⟨S512x2, .f32⟩
  | .local _ .vmem, ⟨10, _⟩ => ⟨S512x2, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x15 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S6144x3_S2048x3_0_0 : S6144x3.Slices ![0, 0] S2048x3
  slices_S6144x3_S2048x3_2048_0 : S6144x3.Slices ![2048, 0] S2048x3
  slices_S6144x3_S2048x3_4096_0 : S6144x3.Slices ![4096, 0] S2048x3
  slices_S6144x2_S2048x2_0_0 : S6144x2.Slices ![0, 0] S2048x2
  slices_S6144x2_S2048x2_2048_0 : S6144x2.Slices ![2048, 0] S2048x2
  slices_S6144x2_S2048x2_4096_0 : S6144x2.Slices ![4096, 0] S2048x2
  concatenates_S2048x3_S2048x2_S2048x5_d1 : Shape.Concatenates [S2048x3, S2048x2] S2048x5 1
  concatenates_S2048x5_S2048x5_S2048x5_S2048x15_d1 : Shape.Concatenates [S2048x5, S2048x5, S2048x5] S2048x15 1
  shapeCasts_S3_S1x3 : S3.ShapeCasts S1x3
  shapeCasts_S2_S1x2 : S2.ShapeCasts S1x2
  inb_S512x2048_S512x2048_0_0 : ∀ a, (![0, 0] : Fin 2 → Nat) a + S512x2048.size a ≤ S512x2048.size a
  h_S512x2048 : 0 < S512x2048.numel
  inb_S2048x15_S2048x15_0_0 : ∀ a, (![0, 0] : Fin 2 → Nat) a + S2048x15.size a ≤ S2048x15.size a
  h_S2048x15 : 0 < S2048x15.numel
  shapeCasts_S2048x15_S2048x15 : S2048x15.ShapeCasts S2048x15
  slices_S2048x15_o0_0_S2048x5 : S2048x15.Slices ![0, 0] S2048x5
  slices_S2048x15_o0_5_S2048x5 : S2048x15.Slices ![0, 5] S2048x5
  slices_S2048x15_o0_10_S2048x5 : S2048x15.Slices ![0, 10] S2048x5
  slices_S512x5_o0_0_S512x3 : S512x5.Slices ![0, 0] S512x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S512x3 : S1x3.Broadcasts S512x3
  reduces_S512x3_S512 : S512x3.Reduces [1] S512
  shapeCasts_S512_S512x1 : S512.ShapeCasts S512x1
  broadcasts_S512x1_S512x3 : S512x1.Broadcasts S512x3
  slices_S512x5_o0_3_S512x2 : S512x5.Slices ![0, 3] S512x2
  slices_S512x3_o0_0_S512x1 : S512x3.Slices ![0, 0] S512x1
  broadcasts_S512x1_S512x2 : S512x1.Broadcasts S512x2
  slices_S512x3_o0_1_S512x1 : S512x3.Slices ![0, 1] S512x1
  slices_S512x3_o0_2_S512x1 : S512x3.Slices ![0, 2] S512x1
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  reduces_S512x2_S512 : S512x2.Reduces [1] S512
  inb_S512x2_S512x2_0_0 : ∀ a, (![0, 0] : Fin 2 → Nat) a + S512x2.size a ≤ S512x2.size a
  h_S512x2 : 0 < S512x2.numel
  dot_S512x2048_S2048x5_S512x5_1_0_0_1_n_n_wf : DotDims.WF S512x2048 S2048x5 S512x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x15.size a ≤ S2048x15.size a
  hwx0_3 : ∀ i : grid0.Coords, EltTy.bits .f32 = 32 ∨ (Rect.block (s := S2048x15) S2048x15.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2.size a ≤ S1x2.size a
  hwx0_5 : ∀ i : grid0.Coords, EltTy.bits .f32 = 32 ∨ (Rect.block (s := S1x2) S1x2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2.size a ≤ S16384x2.size a
  hwx0_6 : ∀ i : grid0.Coords, EltTy.bits .f32 = 32 ∨ (Rect.block (s := S16384x2) S512x2.size (cc0_transform_6 i) (hinb0_6 i)).WholeWords (EltTy.packing .f32)

variable [Facts₀]

def dot_S512x2048_S2048x5_S512x5_1_0_0_1_n_n : DotDims S512x2048 S2048x5 S512x5 where
  lhsContracting := [1]
  rhsContracting := [0]
  lhsNonContracting := [0]
  rhsNonContracting := [1]
  lhsBatch := []
  rhsBatch := []
  wf := dot_S512x2048_S2048x5_S512x5_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x15.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S512x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S6144x3 : Shape := ⟨2, ![6144, 3]⟩
abbrev S3 : Shape := ⟨1, ![3]⟩
abbrev S6144x2 : Shape := ⟨2, ![6144, 2]⟩
abbrev S2 : Shape := ⟨1, ![2]⟩
abbrev S16384x6144 : Shape := ⟨2, ![16384, 6144]⟩
abbrev S16384x3 : Shape := ⟨2, ![16384, 3]⟩
abbrev S1x3 : Shape := ⟨2, ![1, 3]⟩
abbrev S_ : Shape := ⟨0, ![]⟩
abbrev S16384 : Shape := ⟨1, ![16384]⟩
abbrev S16384x1 : Shape := ⟨2, ![16384, 1]⟩
abbrev S16384x2 : Shape := ⟨2, ![16384, 2]⟩
abbrev S1x2 : Shape := ⟨2, ![1, 2]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S6144x3, .f32⟩
  | .hbm, ⟨4, _⟩ => ⟨S3, .f32⟩
  | .hbm, ⟨5, _⟩ => ⟨S6144x2, .f32⟩
  | .hbm, ⟨6, _⟩ => ⟨S2, .f32⟩
  | .hbm, ⟨7, _⟩ => ⟨S16384x6144, .f32⟩
  | .hbm, ⟨8, _⟩ => ⟨S16384x3, .f32⟩
  | .hbm, ⟨9, _⟩ => ⟨S1x3, .f32⟩
  | .hbm, ⟨10, _⟩ => ⟨S16384x3, .f32⟩
  | .hbm, ⟨11, _⟩ => ⟨S16384x3, .f32⟩
  | .hbm, ⟨12, _⟩ => ⟨S_, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S16384x1, .f32⟩
  | .hbm, ⟨18, _⟩ => ⟨S16384x3, .f32⟩
  | .hbm, ⟨19, _⟩ => ⟨S16384x3, .f32⟩
  | .hbm, ⟨20, _⟩ => ⟨S16384x3, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S16384x3, .f32⟩
  | .hbm, ⟨25, _⟩ => ⟨S16384x3, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S16384x6144, .f32⟩
  | .hbm, ⟨36, _⟩ => ⟨S16384x2, .f32⟩
  | .hbm, ⟨37, _⟩ => ⟨S1x2, .f32⟩
  | .hbm, ⟨38, _⟩ => ⟨S16384x2, .f32⟩
  | .hbm, ⟨39, _⟩ => ⟨S16384x2, .f32⟩
  | .hbm, ⟨40, _⟩ => ⟨S_, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384x1, .f32⟩
  | .hbm, ⟨46, _⟩ => ⟨S16384x2, .f32⟩
  | .hbm, ⟨47, _⟩ => ⟨S16384x2, .f32⟩
  | .hbm, ⟨48, _⟩ => ⟨S16384x2, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S16384x2, .f32⟩
  | .hbm, ⟨53, _⟩ => ⟨S16384x2, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  concatenates_S16384x2048_S16384x2048_S16384x2048_S16384x6144_d1 : Shape.Concatenates [S16384x2048, S16384x2048, S16384x2048] S16384x6144 1
  bcast_S3_S1x3_1 : S3.BroadcastsInDim S1x3 (![1] : Fin 1 → Fin S1x3.rank)
  bcast_S1x3_S16384x3_0_1 : S1x3.BroadcastsInDim S16384x3 (![0, 1] : Fin 2 → Fin S16384x3.rank)
  reducesTo_S16384x3_S16384_d1 : S16384x3.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x3_0_1 : S16384x1.BroadcastsInDim S16384x3 (![0, 1] : Fin 2 → Fin S16384x3.rank)
  slices_S16384x3_S16384x1_0_0 : S16384x3.Slices ![0, 0] S16384x1
  bcast_S16384x1_S16384x2048_0_1 : S16384x1.BroadcastsInDim S16384x2048 (![0, 1] : Fin 2 → Fin S16384x2048.rank)
  slices_S16384x3_S16384x1_0_1 : S16384x3.Slices ![0, 1] S16384x1
  slices_S16384x3_S16384x1_0_2 : S16384x3.Slices ![0, 2] S16384x1
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  reducesTo_S16384x2_S16384_d1 : S16384x2.ReducesTo [1] S16384
  bcast_S16384x1_S16384x2_0_1 : S16384x1.BroadcastsInDim S16384x2 (![0, 1] : Fin 2 → Fin S16384x2.rank)
  dot_S16384x6144_S6144x3_S16384x3_1_0_0_1_n_n_wf : DotDims.WF S16384x6144 S6144x3 S16384x3 [1] [0] [0] [1] [] []
  dot_S16384x6144_S6144x2_S16384x2_1_0_0_1_n_n_wf : DotDims.WF S16384x6144 S6144x2 S16384x2 [1] [0] [0] [1] [] []

variable [Facts₀]

def dot_S16384x6144_S6144x3_S16384x3_1_0_0_1_n_n : DotDims S16384x6144 S6144x3 S16384x3 where
  lhsContracting := [1]
  rhsContracting := [0]
  lhsNonContracting := [0]
  rhsNonContracting := [1]
  lhsBatch := []
  rhsBatch := []
  wf := dot_S16384x6144_S6144x3_S16384x3_1_0_0_1_n_n_wf
def dot_S16384x6144_S6144x2_S16384x2_1_0_0_1_n_n : DotDims S16384x6144 S6144x2 S16384x2 where
  lhsContracting := [1]
  rhsContracting := [0]
  lhsNonContracting := [0]
  rhsNonContracting := [1]
  lhsBatch := []
  rhsBatch := []
  wf := dot_S16384x6144_S6144x2_S16384x2_1_0_0_1_n_n_wf

class Facts : Prop extends Facts₀ where

variable [Facts]
-- ==== Proof.FrameKernel.lean ====
/-
  The frame of the program `Kernel`: every weakly fair execution of @main terminates without a fault and leaves the
  seven argument arrays as they were — stated at any float instance.

  @main is twelve host operations (six slices of the two weight matrices, four joins that pack them into one
  [2048, 15] array, two reshapes of the bias vectors) followed by one region over a grid of 32 points.  At every
  point the region's body loads whole blocks — a [512, 2048] block of each feature array, the packed weights, the
  two bias rows —, computes one [512, 2] value from them and stores it over the whole output block; it keeps nothing
  between points.  So each input window's buffer holds the block of its array at the point (for the weights and the
  biases, fetched at the first point only, because their block index never moves), and the output window's buffer
  holds, after the body, the stored value as a function of the six input blocks (`stored`).  None of the host
  operations writes an argument, and the region writes only the result array.
-/
import proofs.«105733_j44985487458840_2_alg».proof.Proof.Gen.Kernel.Launch
import proofs.«105733_j44985487458840_2_alg».proof.Proof.Gen.Kernel.Skeleton
import proofs.«105733_j44985487458840_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the twelve host operations. -/
abbrev atEntry (c : Dev nD) (b : Ref sig .tc) : Buf (Elt F) ((c : Thread nD τ).loc b) :=
  StableHlo.after hostOps0 (fun b => m (c, b)) b

/-- None of the host operations allocates a buffer. -/
theorem hostOps0_fresh : (hostOps0 : List (HloOp τ sig (Elt F))).Forall fun op => op.fresh = ∅ := by
  simp only [List.Forall]; repeat' constructor

/-- @main is the host operations, then the region. -/
theorem mainUpToRegion (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- None of the host operations before the region writes argument 0: the region finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- None of the host operations before the region writes argument 1: the region finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- None of the host operations before the region writes argument 2: the region finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- None of the host operations before the region writes argument 3: the region finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- None of the host operations before the region writes argument 4: the region finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- None of the host operations before the region writes argument 5: the region finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- None of the host operations before the region writes argument 6: the region finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, whether or not the pipeline fetched it
    there: where it did not, the window's block index has not moved since the fetch. -/
theorem held0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, whether or not the pipeline fetched it
    there: where it did not, the window's block index has not moved since the fetch. -/
theorem held1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, whether or not the pipeline fetched it
    there: where it did not, the window's block index has not moved since the fetch. -/
theorem held2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, whether or not the pipeline fetched it
    there: where it did not, the window's block index has not moved since the fetch. -/
theorem held3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, whether or not the pipeline fetched it
    there: where it did not, the window's block index has not moved since the fetch. -/
theorem held4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's current staging buffer holds its block at every point, whether or not the pipeline fetched it
    there: where it did not, the window's block index has not moved since the fetch. -/
theorem held5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## From a run to the library's frame post to the claim's post -/

/-- For any proof data whose arrays are the region-entry contents, a run ending in the library's frame post leaves the
    seven arguments unchanged: a staged argument (the three feature arrays) is read back through its window, an
    argument no window stages is untouched by the region, and neither was written before the region. -/
theorem frame_of (pd : (p : Fin 1) → (c : Dev nD) → Dat τ (Elt F) Unit ℕ (UR sig nD τ) ℕ (cfgs p) c)
    (hA : ∀ c w, (pd 0 c).A w = atEntry m c (Pipeline.arrRef spec0 w))
    (h : θ_run defs (onTc (τ := τ) (main (F := F))) (s₀ m ρ) (Pipeline.FramePost cfgs pd 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((pd 0 c).arrAt_in 0 rfl _).trans ((hA c 0).trans (atEntry_arg0 m c))),
      ((h c).1 1).trans (((pd 0 c).arrAt_in 1 rfl _).trans ((hA c 1).trans (atEntry_arg1 m c))),
      ((h c).1 2).trans (((pd 0 c).arrAt_in 2 rfl _).trans ((hA c 2).trans (atEntry_arg2 m c))),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c)⟩) h

/-! ## The body's accesses: every load and the store take a whole buffer -/

abbrev rFeat : Rect S512x2048 := Rect.unit (s := S512x2048) ![0, 0] S512x2048.size inb_S512x2048_S512x2048_0_0
abbrev rWts : Rect S2048x15 := Rect.unit (s := S2048x15) ![0, 0] S2048x15.size inb_S2048x15_S2048x15_0_0
abbrev rBias3 : Rect S1x3 := Rect.unit (s := S1x3) ![0, 0] S1x3.size inb_S1x3_S1x3_0_0
abbrev rBias2 : Rect S1x2 := Rect.unit (s := S1x2) ![0, 0] S1x2.size inb_S1x2_S1x2_0_0
abbrev rOut : Rect S512x2 := Rect.unit (s := S512x2) ![0, 0] S512x2.size inb_S512x2_S512x2_0_0

/-- What the output window's buffer holds after the body, as a function of the six input blocks: the one stored value,
    laid over the whole buffer. -/
def stored (x0 : Vec F S512x2048 .f32) (x1 : Vec F S512x2048 .f32) (x2 : Vec F S512x2048 .f32) (x3 : Vec F S2048x15 .f32) (x4 : Vec F S1x3 .f32) (x5 : Vec F S1x2 .f32) : Vec F S512x2 .f32 :=
  View.canon [⟨rOut, k0_pay1 (k0_pay7 (View.ld x2 rFeat) (View.ld x3 rWts)) (k0_pay8 (View.ld x0 rFeat) (View.ld x1 rFeat) (View.ld x2 rFeat) (View.ld x3 rWts) (View.ld x4 rBias3)) (k0_pay9 (View.ld x0 rFeat) (View.ld x1 rFeat) (View.ld x2 rFeat) (View.ld x3 rWts) (View.ld x4 rBias3)) (View.ld x5 rBias2)⟩]

/-- The one store covers the output buffer. -/
theorem stored_covers (p0 : Vec F S512x2 .f32) (y : S512x2.Idx) :
    ∃ pc ∈ ([⟨rOut, p0⟩] : List (View.Piece (Elt F) S512x2 .f32)), y ∈ pc.1.set :=
  View.cover_of_tiled [⟨rOut, p0⟩] S512x2.size (by rfl) y

/-! ## The body -/

set_option maxHeartbeats 4000000 in
/-- The body on whole buffers, the six inputs' holding `x0 … x5` and the output's holding anything, runs to the end
    with the inputs' buffers as they were and the output's buffer at `stored x0 … x5`. -/
theorem bodyTriple (c : Dev nD) (E : Set ℕ) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S2048x15 .f32) (harg4 : arg4.IsWhole) (arg5 : Memref sig .tc .vmem S1x3 .f32) (harg5 : arg5.IsWhole) (arg6 : Memref sig .tc .vmem S1x2 .f32) (harg6 : arg6.IsWhole) (arg7 : Memref sig .tc .vmem S512x2 .f32) (harg7 : arg7.IsWhole)
    (x0 : Vec F S512x2048 .f32) (x1 : Vec F S512x2048 .f32) (x2 : Vec F S512x2048 .f32) (x3 : Vec F S2048x15 .f32) (x4 : Vec F S1x3 .f32) (x5 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (stored x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_covers _)

/-! ## The pipeline's proof data -/

/-- The proof data of the pipeline on core `c`: the arrays as the region finds them; after the body at point `t` each
    input's buffer at its block and the output's at `stored` of the six input blocks; the invariant is the scoped rest
    and the generator register, which the body never touches; nothing owed, full shares. -/
def pdat (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => stored (blockAt m c 0 t) (blockAt m c 1 t) (blockAt m c 2 t) (blockAt m c 3 t) (blockAt m c 4 t) (blockAt m c 5 t)
  Φ _ := Pipeline.ΦA spec0 c
  q _ := fullShare
  owed _ := 0

theorem pdat_A (c : Dev nD) (w : Fin cfg0.W) : (pdat m 0 c).A w = atEntry m c (Pipeline.arrRef spec0 w) := by
  dsimp only [pdat]

theorem after0 (c : Dev nD) (t : Fin cfg0.N) : (pdat m 0 c).after 0 t = blockAt m c 0 t := by dsimp only [pdat]
theorem after1 (c : Dev nD) (t : Fin cfg0.N) : (pdat m 0 c).after 1 t = blockAt m c 1 t := by dsimp only [pdat]
theorem after2 (c : Dev nD) (t : Fin cfg0.N) : (pdat m 0 c).after 2 t = blockAt m c 2 t := by dsimp only [pdat]
theorem after3 (c : Dev nD) (t : Fin cfg0.N) : (pdat m 0 c).after 3 t = blockAt m c 3 t := by dsimp only [pdat]
theorem after4 (c : Dev nD) (t : Fin cfg0.N) : (pdat m 0 c).after 4 t = blockAt m c 4 t := by dsimp only [pdat]
theorem after5 (c : Dev nD) (t : Fin cfg0.N) : (pdat m 0 c).after 5 t = blockAt m c 5 t := by dsimp only [pdat]
theorem after6 (c : Dev nD) (t : Fin cfg0.N) : (pdat m 0 c).after 6 t = stored (blockAt m c 0 t) (blockAt m c 1 t) (blockAt m c 2 t) (blockAt m c 3 t) (blockAt m c 4 t) (blockAt m c 5 t) := by dsimp only [pdat]

theorem held0 (c : Dev nD) (t : Fin cfg0.N) (d) : (pdat m 0 c).before 0 t d = blockAt m c 0 t :=
  held0_of m (pdat m 0 c) (pdat_A m c 0) (after0 m c) t d
theorem held1 (c : Dev nD) (t : Fin cfg0.N) (d) : (pdat m 0 c).before 1 t d = blockAt m c 1 t :=
  held1_of m (pdat m 0 c) (pdat_A m c 1) (after1 m c) t d
theorem held2 (c : Dev nD) (t : Fin cfg0.N) (d) : (pdat m 0 c).before 2 t d = blockAt m c 2 t :=
  held2_of m (pdat m 0 c) (pdat_A m c 2) (after2 m c) t d
theorem held3 (c : Dev nD) (t : Fin cfg0.N) (d) : (pdat m 0 c).before 3 t d = blockAt m c 3 t :=
  held3_of m (pdat m 0 c) (pdat_A m c 3) (after3 m c) t d
theorem held4 (c : Dev nD) (t : Fin cfg0.N) (d) : (pdat m 0 c).before 4 t d = blockAt m c 4 t :=
  held4_of m (pdat m 0 c) (pdat_A m c 4) (after4 m c) t d
theorem held5 (c : Dev nD) (t : Fin cfg0.N) (d) : (pdat m 0 c).before 5 t d = blockAt m c 5 t :=
  held5_of m (pdat m 0 c) (pdat_A m c 5) (after5 m c) t d

/-! ## The body obligation at a point -/

/-- What the body is called with at point `t`, the windows one by one, -/
def bodyPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d)))

/-- and what it returns. -/
def bodyPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t))

/-- The body at any point: the inputs' buffers hold their blocks, so `bodyTriple` applies; the invariant and the
    core's dues pass through unread. -/
theorem bodyAtPoint (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5]
  rw [show (pdat m 0 c).Φ t.succ = (pdat m 0 c).Φ t.castSucc from rfl,
    show (pdat m 0 c).owesAt () t.succ = (pdat m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyTriple c Set.univ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem bodyObligation (c : Dev nD) : BodyObligation (pdat (F := F) m 0 c) (defs₀ (F := F)) Variants.none () Set.univ := fun t => by
  rw [bigSep_W0, bigSep_W0]
  exact bodyAtPoint m c t

/-! ## The run and the frame -/

set_option backward.isDefEq.respectTransparency.types false in
/-- From any memory with zero counters every weakly fair execution of @main terminates, and every final state has each
    array of the pipeline at what the proof data says and every other unscoped buffer as the region found it. -/
theorem run_main : θ_run defs (onTc (τ := τ) (main (F := F))) (s₀ m ρ) (Pipeline.FramePost cfgs (pdat m) 0 (atEntry m)) :=
  Pipeline.θ_run_frame cfgs (pdat m) (0 : Fin 1) launch0 defs₀ Variants.none m ρ main
    (hbody := fun c => (bodyObligation m c).loose) (hshare := fun c => (pdat m 0 c).share_full fun _ => rfl)
    (howed := fun _ _ => rfl) (V := atEntry m) (hmain := mainUpToRegion m Variants.none) (hA := pdat_A m) (hΦ := fun _ _ => rfl)

/-- The frame of `Kernel`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (pdat m) (pdat_A m) (run_main m ρ)

end Cert.Kernel.Hand

end
-- ==== Proof.FrameKernelIdeal.lean ====
/-
  The frame of the program `KernelIdeal`: every weakly fair execution of @main terminates without a fault and leaves the
  seven argument arrays as they were — stated at any float instance.

  @main is twelve host operations (six slices of the two weight matrices, four joins that pack them into one
  [2048, 15] array, two reshapes of the bias vectors) followed by one region over a grid of 32 points.  At every
  point the region's body loads whole blocks — a [512, 2048] block of each feature array, the packed weights, the
  two bias rows —, computes one [512, 2] value from them and stores it over the whole output block; it keeps nothing
  between points.  So each input window's buffer holds the block of its array at the point (for the weights and the
  biases, fetched at the first point only, because their block index never moves), and the output window's buffer
  holds, after the body, the stored value as a function of the six input blocks (`stored`).  None of the host
  operations writes an argument, and the region writes only the result array.
-/
import proofs.«105733_j44985487458840_2_alg».proof.Proof.Gen.KernelIdeal.Launch
import proofs.«105733_j44985487458840_2_alg».proof.Proof.Gen.KernelIdeal.Skeleton
import proofs.«105733_j44985487458840_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the twelve host operations. -/
abbrev atEntry (c : Dev nD) (b : Ref sig .tc) : Buf (Elt F) ((c : Thread nD τ).loc b) :=
  StableHlo.after hostOps0 (fun b => m (c, b)) b

/-- None of the host operations allocates a buffer. -/
theorem hostOps0_fresh : (hostOps0 : List (HloOp τ sig (Elt F))).Forall fun op => op.fresh = ∅ := by
  simp only [List.Forall]; repeat' constructor

/-- @main is the host operations, then the region. -/
theorem mainUpToRegion (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- None of the host operations before the region writes argument 0: the region finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- None of the host operations before the region writes argument 1: the region finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- None of the host operations before the region writes argument 2: the region finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- None of the host operations before the region writes argument 3: the region finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- None of the host operations before the region writes argument 4: the region finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- None of the host operations before the region writes argument 5: the region finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-- None of the host operations before the region writes argument 6: the region finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, whether or not the pipeline fetched it
    there: where it did not, the window's block index has not moved since the fetch. -/
theorem held0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, whether or not the pipeline fetched it
    there: where it did not, the window's block index has not moved since the fetch. -/
theorem held1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, whether or not the pipeline fetched it
    there: where it did not, the window's block index has not moved since the fetch. -/
theorem held2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, whether or not the pipeline fetched it
    there: where it did not, the window's block index has not moved since the fetch. -/
theorem held3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, whether or not the pipeline fetched it
    there: where it did not, the window's block index has not moved since the fetch. -/
theorem held4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5's current staging buffer holds its block at every point, whether or not the pipeline fetched it
    there: where it did not, the window's block index has not moved since the fetch. -/
theorem held5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## From a run to the library's frame post to the claim's post -/

/-- For any proof data whose arrays are the region-entry contents, a run ending in the library's frame post leaves the
    seven arguments unchanged: a staged argument (the three feature arrays) is read back through its window, an
    argument no window stages is untouched by the region, and neither was written before the region. -/
theorem frame_of (pd : (p : Fin 1) → (c : Dev nD) → Dat τ (Elt F) Unit ℕ (UR sig nD τ) ℕ (cfgs p) c)
    (hA : ∀ c w, (pd 0 c).A w = atEntry m c (Pipeline.arrRef spec0 w))
    (h : θ_run defs (onTc (τ := τ) (main (F := F))) (s₀ m ρ) (Pipeline.FramePost cfgs pd 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((pd 0 c).arrAt_in 0 rfl _).trans ((hA c 0).trans (atEntry_arg0 m c))),
      ((h c).1 1).trans (((pd 0 c).arrAt_in 1 rfl _).trans ((hA c 1).trans (atEntry_arg1 m c))),
      ((h c).1 2).trans (((pd 0 c).arrAt_in 2 rfl _).trans ((hA c 2).trans (atEntry_arg2 m c))),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c)⟩) h

/-! ## The body's accesses: every load and the store take a whole buffer -/

abbrev rFeat : Rect S512x2048 := Rect.unit (s := S512x2048) ![0, 0] S512x2048.size inb_S512x2048_S512x2048_0_0
abbrev rWts : Rect S2048x15 := Rect.unit (s := S2048x15) ![0, 0] S2048x15.size inb_S2048x15_S2048x15_0_0
abbrev rBias3 : Rect S1x3 := Rect.unit (s := S1x3) ![0, 0] S1x3.size inb_S1x3_S1x3_0_0
abbrev rBias2 : Rect S1x2 := Rect.unit (s := S1x2) ![0, 0] S1x2.size inb_S1x2_S1x2_0_0
abbrev rOut : Rect S512x2 := Rect.unit (s := S512x2) ![0, 0] S512x2.size inb_S512x2_S512x2_0_0

/-- What the output window's buffer holds after the body, as a function of the six input blocks: the one stored value,
    laid over the whole buffer. -/
def stored (x0 : Vec F S512x2048 .f32) (x1 : Vec F S512x2048 .f32) (x2 : Vec F S512x2048 .f32) (x3 : Vec F S2048x15 .f32) (x4 : Vec F S1x3 .f32) (x5 : Vec F S1x2 .f32) : Vec F S512x2 .f32 :=
  View.canon [⟨rOut, k0_pay1 (k0_pay7 (View.ld x2 rFeat) (View.ld x3 rWts)) (k0_pay8 (View.ld x0 rFeat) (View.ld x1 rFeat) (View.ld x2 rFeat) (View.ld x3 rWts) (View.ld x4 rBias3)) (k0_pay9 (View.ld x0 rFeat) (View.ld x1 rFeat) (View.ld x2 rFeat) (View.ld x3 rWts) (View.ld x4 rBias3)) (View.ld x5 rBias2)⟩]

/-- The one store covers the output buffer. -/
theorem stored_covers (p0 : Vec F S512x2 .f32) (y : S512x2.Idx) :
    ∃ pc ∈ ([⟨rOut, p0⟩] : List (View.Piece (Elt F) S512x2 .f32)), y ∈ pc.1.set :=
  View.cover_of_tiled [⟨rOut, p0⟩] S512x2.size (by rfl) y

/-! ## The body -/

set_option maxHeartbeats 4000000 in
/-- The body on whole buffers, the six inputs' holding `x0 … x5` and the output's holding anything, runs to the end
    with the inputs' buffers as they were and the output's buffer at `stored x0 … x5`. -/
theorem bodyTriple (c : Dev nD) (E : Set ℕ) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S2048x15 .f32) (harg4 : arg4.IsWhole) (arg5 : Memref sig .tc .vmem S1x3 .f32) (harg5 : arg5.IsWhole) (arg6 : Memref sig .tc .vmem S1x2 .f32) (harg6 : arg6.IsWhole) (arg7 : Memref sig .tc .vmem S512x2 .f32) (harg7 : arg7.IsWhole)
    (x0 : Vec F S512x2048 .f32) (x1 : Vec F S512x2048 .f32) (x2 : Vec F S512x2048 .f32) (x3 : Vec F S2048x15 .f32) (x4 : Vec F S1x3 .f32) (x5 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (stored x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (stored_covers _)

/-! ## The pipeline's proof data -/

/-- The proof data of the pipeline on core `c`: the arrays as the region finds them; after the body at point `t` each
    input's buffer at its block and the output's at `stored` of the six input blocks; the invariant is the scoped rest
    and the generator register, which the body never touches; nothing owed, full shares. -/
def pdat (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => stored (blockAt m c 0 t) (blockAt m c 1 t) (blockAt m c 2 t) (blockAt m c 3 t) (blockAt m c 4 t) (blockAt m c 5 t)
  Φ _ := Pipeline.ΦA spec0 c
  q _ := fullShare
  owed _ := 0

theorem pdat_A (c : Dev nD) (w : Fin cfg0.W) : (pdat m 0 c).A w = atEntry m c (Pipeline.arrRef spec0 w) := by
  dsimp only [pdat]

theorem after0 (c : Dev nD) (t : Fin cfg0.N) : (pdat m 0 c).after 0 t = blockAt m c 0 t := by dsimp only [pdat]
theorem after1 (c : Dev nD) (t : Fin cfg0.N) : (pdat m 0 c).after 1 t = blockAt m c 1 t := by dsimp only [pdat]
theorem after2 (c : Dev nD) (t : Fin cfg0.N) : (pdat m 0 c).after 2 t = blockAt m c 2 t := by dsimp only [pdat]
theorem after3 (c : Dev nD) (t : Fin cfg0.N) : (pdat m 0 c).after 3 t = blockAt m c 3 t := by dsimp only [pdat]
theorem after4 (c : Dev nD) (t : Fin cfg0.N) : (pdat m 0 c).after 4 t = blockAt m c 4 t := by dsimp only [pdat]
theorem after5 (c : Dev nD) (t : Fin cfg0.N) : (pdat m 0 c).after 5 t = blockAt m c 5 t := by dsimp only [pdat]
theorem after6 (c : Dev nD) (t : Fin cfg0.N) : (pdat m 0 c).after 6 t = stored (blockAt m c 0 t) (blockAt m c 1 t) (blockAt m c 2 t) (blockAt m c 3 t) (blockAt m c 4 t) (blockAt m c 5 t) := by dsimp only [pdat]

theorem held0 (c : Dev nD) (t : Fin cfg0.N) (d) : (pdat m 0 c).before 0 t d = blockAt m c 0 t :=
  held0_of m (pdat m 0 c) (pdat_A m c 0) (after0 m c) t d
theorem held1 (c : Dev nD) (t : Fin cfg0.N) (d) : (pdat m 0 c).before 1 t d = blockAt m c 1 t :=
  held1_of m (pdat m 0 c) (pdat_A m c 1) (after1 m c) t d
theorem held2 (c : Dev nD) (t : Fin cfg0.N) (d) : (pdat m 0 c).before 2 t d = blockAt m c 2 t :=
  held2_of m (pdat m 0 c) (pdat_A m c 2) (after2 m c) t d
theorem held3 (c : Dev nD) (t : Fin cfg0.N) (d) : (pdat m 0 c).before 3 t d = blockAt m c 3 t :=
  held3_of m (pdat m 0 c) (pdat_A m c 3) (after3 m c) t d
theorem held4 (c : Dev nD) (t : Fin cfg0.N) (d) : (pdat m 0 c).before 4 t d = blockAt m c 4 t :=
  held4_of m (pdat m 0 c) (pdat_A m c 4) (after4 m c) t d
theorem held5 (c : Dev nD) (t : Fin cfg0.N) (d) : (pdat m 0 c).before 5 t d = blockAt m c 5 t :=
  held5_of m (pdat m 0 c) (pdat_A m c 5) (after5 m c) t d

/-! ## The body obligation at a point -/

/-- What the body is called with at point `t`, the windows one by one, -/
def bodyPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d)))

/-- and what it returns. -/
def bodyPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t))

/-- The body at any point: the inputs' buffers hold their blocks, so `bodyTriple` applies; the invariant and the
    core's dues pass through unread. -/
theorem bodyAtPoint (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5]
  rw [show (pdat m 0 c).Φ t.succ = (pdat m 0 c).Φ t.castSucc from rfl,
    show (pdat m 0 c).owesAt () t.succ = (pdat m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyTriple c Set.univ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem bodyObligation (c : Dev nD) : BodyObligation (pdat (F := F) m 0 c) (defs₀ (F := F)) Variants.none () Set.univ := fun t => by
  rw [bigSep_W0, bigSep_W0]
  exact bodyAtPoint m c t

/-! ## The run and the frame -/

set_option backward.isDefEq.respectTransparency.types false in
/-- From any memory with zero counters every weakly fair execution of @main terminates, and every final state has each
    array of the pipeline at what the proof data says and every other unscoped buffer as the region found it. -/
theorem run_main : θ_run defs (onTc (τ := τ) (main (F := F))) (s₀ m ρ) (Pipeline.FramePost cfgs (pdat m) 0 (atEntry m)) :=
  Pipeline.θ_run_frame cfgs (pdat m) (0 : Fin 1) launch0 defs₀ Variants.none m ρ main
    (hbody := fun c => (bodyObligation m c).loose) (hshare := fun c => (pdat m 0 c).share_full fun _ => rfl)
    (howed := fun _ _ => rfl) (V := atEntry m) (hmain := mainUpToRegion m Variants.none) (hA := pdat_A m) (hΦ := fun _ _ => rfl)

/-- The frame of `KernelIdeal`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (pdat m) (pdat_A m) (run_main m ρ)

end Cert.KernelIdeal.Hand

end
-- ==== Proof.Spec.lean ====
/-
  The mathematics both programs compute, per row of the batch.

  A row consists of three feature vectors of length 2048 (one per modality).  A gate — the softmax of three affine
  scores of the joined 6144-vector — weighs the modalities, and the classifier is the softmax of two affine scores
  of the joined, gate-scaled vector.

  Two arrangements of this row function are stated here.  `refRow` joins the three vectors first and contracts the
  joined vector of length 6144 against the weight matrices.  `rowOut` contracts each vector of length 2048 against its
  own column band of ONE packed [2048, 15] weight array (per modality five columns: three gate columns, then two
  classifier columns), adds the three partial scores, and applies the gate to the partial classifier scores instead
  of to the features.  `packW` is that packing of the two weight matrices.

  A row maximum is taken as both programs take it: the maximum of -∞ and the running maximum that starts at -∞.
-/
import Idealize.ShloMosaic.PureOps.Ideal
import Idealize.ShloMosaic.Lib.ValueIdx

noncomputable section

open scoped BigOperators

namespace Cert.Fusion

open Idealize.ShloMosaic Idealize.ShloMosaic.ValueIdx

/-- An array of extended reals with two axes, indexed by the library's rank-2 indices. -/
abbrev Arr2 (a b : Nat) : Type := (⟨2, ![a, b]⟩ : Shape).Idx → EReal
/-- An array of extended reals with one axis. -/
abbrev Arr1 (a : Nat) : Type := (⟨1, ![a]⟩ : Shape).Idx → EReal

/-- The maximum of a finite family: the larger of -∞ and the running maximum started at -∞. -/
def rowMax {n : Nat} (L : Fin n → EReal) : EReal :=
  max ⊥ ((Finset.univ : Finset (Fin n)).fold max ⊥ L)

/-- The softmax of a finite family of scores, shifted by their maximum. -/
def softmax {n : Nat} (L : Fin n → EReal) (j : Fin n) : EReal :=
  Ideal.div (Ideal.exp (L j - rowMax L)) (∑ k : Fin n, Ideal.exp (L k - rowMax L))

/-- Three vectors of length 2048 joined into one of length 6144. -/
def cat3 (a0 a1 a2 : Fin 2048 → EReal) (k : Fin 6144) : EReal :=
  if h : k.val < 2048 then a0 ⟨k.val, h⟩
  else if h' : k.val < 4096 then a1 ⟨k.val - 2048, by omega⟩
  else a2 ⟨k.val - 4096, by omega⟩

/-- The row function in the reference's arrangement: gate scores of the joined vector, the gate applied to the
    features, classifier scores of the joined scaled vector. -/
def refRow (a0 a1 a2 : Fin 2048 → EReal) (w3 : Arr2 6144 3) (b4 : Arr1 3) (w5 : Arr2 6144 2) (b6 : Arr1 2)
    (q : Fin 2) : EReal :=
  let gate : Fin 3 → EReal := softmax fun j => (∑ k : Fin 6144, cat3 a0 a1 a2 k * w3 (ix2 k j)) + b4 (ix1 j)
  softmax (fun q' => (∑ k : Fin 6144,
      cat3 (fun k => gate 0 * a0 k) (fun k => gate 1 * a1 k) (fun k => gate 2 * a2 k) k * w5 (ix2 k q')) + b6 (ix1 q')) q

/-- One vector of length 2048 against column `c` of the packed weights. -/
def bandDot (a : Fin 2048 → EReal) (w : Arr2 2048 15) (c : Fin 15) : EReal :=
  ∑ k : Fin 2048, a k * w (ix2 k c)

/-- The gate in the kernel's arrangement: per modality its own column band, the three partial scores added left to right. -/
def gateOut (a0 a1 a2 : Fin 2048 → EReal) (w : Arr2 2048 15) (b3 : Arr2 1 3) : Fin 3 → EReal :=
  softmax fun j =>
    ((bandDot a0 w ⟨j.val, by omega⟩ + bandDot a1 w ⟨5 + j.val, by omega⟩) + bandDot a2 w ⟨10 + j.val, by omega⟩)
      + b3 (ix2 0 j)

/-- The row function in the kernel's arrangement: the gate weighs the partial classifier scores. -/
def rowOut (a0 a1 a2 : Fin 2048 → EReal) (w : Arr2 2048 15) (b3 : Arr2 1 3) (b2 : Arr2 1 2) (q : Fin 2) : EReal :=
  softmax (fun q' =>
    ((gateOut a0 a1 a2 w b3 0 * bandDot a0 w ⟨3 + q'.val, by omega⟩
        + gateOut a0 a1 a2 w b3 1 * bandDot a1 w ⟨8 + q'.val, by omega⟩)
      + gateOut a0 a1 a2 w b3 2 * bandDot a2 w ⟨13 + q'.val, by omega⟩)
      + b2 (ix2 0 q')) q

/-- The packed weights: column `5 b + j` of row `k` is gate weight `(2048 b + k, j)` for `j < 3` and classifier
    weight `(2048 b + k, j - 3)` for `3 ≤ j < 5`. -/
def packW (w3 : Arr2 6144 3) (w5 : Arr2 6144 2) : Arr2 2048 15 := fun i =>
  have hk : (i 0).val < 2048 := (i 0).isLt
  have hc : (i 1).val < 15 := (i 1).isLt
  if h : (i 1).val % 5 < 3
  then w3 (ix2 (⟨2048 * ((i 1).val / 5) + (i 0).val, by omega⟩ : Fin 6144) (⟨(i 1).val % 5, h⟩ : Fin 3))
  else w5 (ix2 (⟨2048 * ((i 1).val / 5) + (i 0).val, by omega⟩ : Fin 6144) (⟨(i 1).val % 5 - 3, by omega⟩ : Fin 2))

/-- A bias vector laid out as a one-row matrix. -/
def asRow {n : Nat} (b : Arr1 n) : Arr2 1 n := fun i => b (ix1 (i 1))

end Cert.Fusion

end
-- ==== Proof.LibKeepdims.lean ====
/-
  Column ("keepdims") layouts read at an index: a vector viewed as a one-column matrix, and a one-column matrix
  broadcast along its unit axis. A row reduction kept as a column (`sum(-1, keepdims=True)`) is the first followed,
  where it meets the matrix it was reduced from, by the second.
-/
import Idealize.ShloMosaic.Lib.ValueIdx
import Idealize.ShloMosaic.Lib.Pipeline.Value

namespace Cert.Lib

open Idealize.ShloMosaic Idealize.ShloMosaic.ValueIdx

variable {α : Type}

/-- An `[a]` vector cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, q)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibRowReduce.lean ====
/-
  Row reductions kept as a column, read at an index, at the ideal values: the sum (or the maximum) of a matrix
  along its rows, viewed as a one-column matrix, holds at `(p, u)` the sum (the fold of `max`) of row `p`.
-/
import Idealize.ShloMosaic.PureOps.Ideal.Laws
import Idealize.ShloMosaic.Lib.ValueIdx
import Idealize.ShloMosaic.Lib.Pipeline.Value
import proofs.«105733_j44985487458840_2_alg».proof.Proof.LibKeepdims

namespace Cert.Lib

open Idealize.ShloMosaic Idealize.ShloMosaic.ValueIdx

variable {φ : FTy}

/-- Inserting the column coordinate `k` into the row index `p` gives `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- The row sums of an `[a, b]` matrix, kept as an `[a, 1]` column: at `(p, u)` the sum of row `p`. -/
theorem rowSum_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction .add [1] ⟨1, ![a]⟩ v acc h hφ hacc) hc (ix2 p u)
      = ∑ k : Fin b, v (ix2 p k) := by
  rw [shapeCast_a_a1_apply]
  refine (Ideal.multiReduction_add_single v acc h hφ hacc (ix1 p)).trans ?_
  exact Finset.sum_congr rfl fun k _ => congrArg v (lift_row h p k)

/-- The row maxima likewise: at `(p, u)` the fold of `max`, from the accumulator's value, over row `p`. -/
theorem rowMax_col {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hc : (⟨1, ![a]⟩ : Shape).ShapeCasts ⟨2, ![a, 1]⟩) (p : Fin a) (u : Fin 1) :
    shapeCast ⟨2, ![a, 1]⟩ (multiReduction .maximumf [1] ⟨1, ![a]⟩ v acc h hφ hacc) hc (ix2 p u)
      = (Finset.univ : Finset (Fin b)).fold max (Ideal.ofBits φ acc) (fun k => v (ix2 p k)) := by
  rw [shapeCast_a_a1_apply]
  refine (Ideal.multiReduction_maximumf_single v acc h hφ hacc (ix1 p)).trans ?_
  have e : (v ∘ h.lift (ix1 p)) = fun k : Fin b => v (ix2 p k) := funext fun k => congrArg v (lift_row h p k)
  rw [e]
  rfl

end Cert.Lib
-- ==== Proof.PayRow.lean ====
/-
  The value the kernel body stores, read at one index of its [512, 2] output block.

  The body's arithmetic is a chain of array operations on the loaded blocks: column bands cut from the packed
  weights, three block products into a zero accumulator, and two softmaxes, each written out as a row maximum, a
  shifted exponential, a row sum and a quotient, with one-column and one-row arrays repeated across the block.
  Read at an index (p, q), every one of these operations reads its operands in row p only: a column band at (k, j)
  is the packed array at (k, offset + j); a block product at (p, c) is the sum over k of the left block at (p, k)
  times the band at (k, c); a row maximum or row sum kept as a column and repeated along the row is the maximum or
  sum of row p.  So the gate block at (p, j) is the specification's gate of row p, and the stored block at (p, q)
  is the specification's row function `rowOut` of row p of the three feature blocks.
-/
import proofs.«105733_j44985487458840_2_alg».proof.Proof.Gen.KernelIdeal.Skeleton
import proofs.«105733_j44985487458840_2_alg».proof.Proof.Spec
import proofs.«105733_j44985487458840_2_alg».proof.Proof.LibKeepdims
import proofs.«105733_j44985487458840_2_alg».proof.Proof.LibRowReduce
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayRow

open Idealize.ShloMosaic Idealize.ShloMosaic.ValueIdx
open Cert.KernelIdeal Cert.KernelIdeal.Gen

/-! ## Layout operations read at an index -/

/-- A band of `c` columns cut from an `[a, b]` array at column offset `off` reads, at `(p, j)`, the array at
    `(p, off + j)`. -/
theorem slice_cols_apply {α : Type} {a b c : ℕ} (off : ℕ) (x : (⟨2, ![a, b]⟩ : Shape).Idx → α)
    (h : (⟨2, ![a, b]⟩ : Shape).Slices ![0, off] ⟨2, ![a, c]⟩) (p : Fin a) (j : Fin c) (j' : Fin b)
    (hj : j'.val = off + j.val) :
    extractStridedSlice ⟨2, ![a, c]⟩ ![0, off] x h (ix2 p j) = x (ix2 p j') := by
  refine extractStridedSlice_apply ![0, off] x h (ix2 p j) (ix2 p j') fun ax => ?_
  match ax with
  | ⟨0, _⟩ =>
    show p.val = 0 + p.val
    rw [Nat.zero_add]
  | ⟨1, _⟩ => exact hj

/-! ## A block product read at an index -/

/-- Off the contracted axis the left operand's index keeps the output row. -/
theorem lhs_row (i : S512x5.Idx) (q : dot_S512x2048_S2048x5_S512x5_1_0_0_1_n_n.contr.Idx) :
    (dot_S512x2048_S2048x5_S512x5_1_0_0_1_n_n.lhsIdx i q 0).val = (i 0).val := by
  unfold DotDims.lhsIdx
  rw [dif_neg (show ¬(0 : Fin S512x2048.rank) ∈ dot_S512x2048_S2048x5_S512x5_1_0_0_1_n_n.lhsBatch by decide),
    dif_pos (show (0 : Fin S512x2048.rank) ∈ dot_S512x2048_S2048x5_S512x5_1_0_0_1_n_n.lhsNonContracting by decide)]
  rfl

/-- Off the contracted axis the right operand's index keeps the output column. -/
theorem rhs_col (i : S512x5.Idx) (q : dot_S512x2048_S2048x5_S512x5_1_0_0_1_n_n.contr.Idx) :
    (dot_S512x2048_S2048x5_S512x5_1_0_0_1_n_n.rhsIdx i q 1).val = (i 1).val := by
  unfold DotDims.rhsIdx
  rw [dif_neg (show ¬(1 : Fin S2048x5.rank) ∈ dot_S512x2048_S2048x5_S512x5_1_0_0_1_n_n.rhsBatch by decide),
    dif_pos (show (1 : Fin S2048x5.rank) ∈ dot_S512x2048_S2048x5_S512x5_1_0_0_1_n_n.rhsNonContracting by decide)]
  rfl

/-- The product of a `[512, 2048]` block and a `[2048, 5]` band into the zero block reads, at `(p, c)`, the sum over
    `k` of the block at `(p, k)` times the band at `(k, c)`. -/
theorem matmul_zero_apply (y : FVec Ideal S512x2048 .f32) (v : FVec Ideal S2048x5 .f32) (p : Fin 512) (c : Fin 5) :
    matmul (F := Ideal) dot_S512x2048_S2048x5_S512x5_1_0_0_1_n_n none y v (constant (F := Ideal) S512x5 .f32 0x00000000#32)
        (ix2 p c)
      = ∑ k : Fin 2048, y (ix2 p k) * v (ix2 k c) := by
  simp only [matmul]
  rw [Ideal.matmul_constant_zero_apply,
    ← Equiv.sum_comp (contrEquiv1 dot_S512x2048_S2048x5_S512x5_1_0_0_1_n_n 2048 rfl rfl).symm]
  refine Finset.sum_congr rfl fun k _ => ?_
  have hk := contrEquiv1_symm_val dot_S512x2048_S2048x5_S512x5_1_0_0_1_n_n 2048 rfl rfl k
  have el : dot_S512x2048_S2048x5_S512x5_1_0_0_1_n_n.lhsIdx (ix2 p c)
      ((contrEquiv1 dot_S512x2048_S2048x5_S512x5_1_0_0_1_n_n 2048 rfl rfl).symm k) = ix2 p k :=
    funext fun a => Fin.ext (by
      match a with
      | ⟨0, _⟩ => exact lhs_row _ _
      | ⟨1, _⟩ => exact (dot_S512x2048_S2048x5_S512x5_1_0_0_1_n_n.lhsIdx_val_of_single rfl _ _).trans hk)
  have er : dot_S512x2048_S2048x5_S512x5_1_0_0_1_n_n.rhsIdx (ix2 p c)
      ((contrEquiv1 dot_S512x2048_S2048x5_S512x5_1_0_0_1_n_n 2048 rfl rfl).symm k) = ix2 k c :=
    funext fun a => Fin.ext (by
      match a with
      | ⟨0, _⟩ => exact (dot_S512x2048_S2048x5_S512x5_1_0_0_1_n_n.rhsIdx_val_of_single rfl _ _).trans hk
      | ⟨1, _⟩ => exact rhs_col _ _)
  rw [el, er]

/-! ## A softmax along the rows, read at an index -/

/-- The f32 pattern of `-∞` is the bottom of the extended reals. -/
theorem ofBits_neg_inf : Ideal.ofBits .f32 0xFF800000#32 = ⊥ := by simp [Ideal.ofBits, Ideal.ieee]

section Softmax
variable {a b : ℕ}

/-- The exponentials of an `[a, b]` array's entries, each shifted by its row's maximum, as the body writes them: the
    row maxima folded from `-∞`, joined once more with `-∞`, kept as a column and repeated along the rows. -/
def shiftExp (v : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  exp (subf v (broadcastTo ⟨2, ![a, b]⟩ (shapeCast ⟨2, ![a, 1]⟩
    (maximumf (broadcast ⟨1, ![a]⟩ (Scalar.ofBits (F := Ideal) .f32 0xFF800000#32))
      (multiReduction (F := Ideal) .maximumf [1] ⟨1, ![a]⟩ v 0xFF800000#32 hr (.inl rfl) rfl)) hc) hb))

/-- The softmax along the rows as the body writes it: the shifted exponentials over their row sums, the sums kept as
    a column and repeated along the rows. -/
def smx (v : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  divf (shiftExp v hr hc hb) (broadcastTo ⟨2, ![a, b]⟩ (shapeCast ⟨2, ![a, 1]⟩
    (multiReduction (F := Ideal) .add [1] ⟨1, ![a]⟩ (shiftExp v hr hc hb) 0x00000000#32 hr (.inl rfl) rfl) hc) hb)

/-- The row maximum the body takes, at row `p`: the specification's `rowMax` of that row. -/
theorem maxVec_apply (v : FVec Ideal ⟨2, ![a, b]⟩ .f32) (hr : (⟨2, ![a, b]⟩ : Shape).Reduces [1] ⟨1, ![a]⟩)
    (hc : (⟨1, ![a]⟩ : Shape).ShapeCasts ⟨2, ![a, 1]⟩) (p : Fin a) :
    maximumf (broadcast ⟨1, ![a]⟩ (Scalar.ofBits (F := Ideal) .f32 0xFF800000#32))
        (multiReduction (F := Ideal) .maximumf [1] ⟨1, ![a]⟩ v 0xFF800000#32 hr (.inl rfl) rfl) (ix1 p)
      = Cert.Fusion.rowMax fun k : Fin b => v (ix2 p k) := by
  have hm : multiReduction (F := Ideal) .maximumf [1] ⟨1, ![a]⟩ v 0xFF800000#32 hr (.inl rfl) rfl (ix1 p)
      = (Finset.univ : Finset (Fin b)).fold max (Ideal.ofBits .f32 0xFF800000#32) (fun k => v (ix2 p k)) :=
    (Cert.Lib.shapeCast_a_a1_apply _ hc p 0).symm.trans (Cert.Lib.rowMax_col v 0xFF800000#32 hr (.inl rfl) rfl hc p 0)
  show max (Ideal.ofBits .f32 0xFF800000#32) _ = _
  rw [hm, ofBits_neg_inf]
  rfl

/-- A shifted exponential at `(p, k)`: the exponential of the entry minus the maximum of row `p`. -/
theorem shiftExp_apply (v : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (p : Fin a) (k : Fin b) :
    shiftExp v hr hc hb (ix2 p k) = Ideal.exp (v (ix2 p k) - Cert.Fusion.rowMax fun k' : Fin b => v (ix2 p k')) := by
  unfold shiftExp
  show Ideal.exp (v (ix2 p k) - broadcastTo ⟨2, ![a, b]⟩ _ hb (ix2 p k)) = _
  rw [Cert.Lib.broadcastTo_a1_ab_apply, Cert.Lib.shapeCast_a_a1_apply, maxVec_apply v hr hc p]

/-- The body's softmax at `(p, j)`: the specification's softmax of row `p`, at `j`. -/
theorem smx_apply (v : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (p : Fin a) (j : Fin b) :
    smx v hr hc hb (ix2 p j) = Cert.Fusion.softmax (fun k : Fin b => v (ix2 p k)) j := by
  unfold smx Cert.Fusion.softmax
  show Ideal.div (shiftExp v hr hc hb (ix2 p j)) (broadcastTo ⟨2, ![a, b]⟩ _ hb (ix2 p j)) = _
  rw [Cert.Lib.broadcastTo_a1_ab_apply]
  refine (congrArg (Ideal.div (shiftExp v hr hc hb (ix2 p j)))
    (Cert.Lib.rowSum_col (shiftExp v hr hc hb) 0x00000000#32 hr (.inl rfl) rfl hc p 0)).trans ?_
  simp only [shiftExp_apply]

end Softmax

/-! ## The three band products -/

/-- A feature block times the band of the packed weights at column offset `off`, read at `(p, c)`: row `p` of the
    block against column `off + c` of the packed weights. -/
theorem band_apply (off : ℕ) (h : S2048x15.Slices ![0, off] S2048x5) (y : FVec Ideal S512x2048 .f32)
    (w : FVec Ideal S2048x15 .f32) (p : Fin 512) (c : Fin 5) (c' : Fin 15) (hc : c'.val = off + c.val) :
    matmul (F := Ideal) (φ₁ := .f32) (φ₂ := .f32) dot_S512x2048_S2048x5_S512x5_1_0_0_1_n_n none y
        (extractStridedSlice S2048x5 ![0, off] (shapeCast S2048x15 w shapeCasts_S2048x15_S2048x15) h)
        (constant (F := Ideal) S512x5 .f32 0x00000000#32) (ix2 p c)
      = Cert.Fusion.bandDot (fun k => y (ix2 p k)) w c' := by
  unfold Cert.Fusion.bandDot
  refine (matmul_zero_apply y _ p c).trans ?_
  refine Finset.sum_congr rfl fun k _ => congrArg (y (ix2 p k) * ·) ?_
  refine (slice_cols_apply off _ h k c c' hc).trans ?_
  rw [shapeCast_self]

/-- The first block product at `(p, c)`: column `c` of the packed weights. -/
theorem pay3_apply (y : Vec Ideal S512x2048 .f32) (w : Vec Ideal S2048x15 .f32) (p : Fin 512) (c : Fin 5)
    (c' : Fin 15) (hc : c'.val = 0 + c.val) :
    k0_pay3 (F := Ideal) y w (ix2 p c) = Cert.Fusion.bandDot (fun k => y (ix2 p k)) w c' := by
  unfold k0_pay3 k0_pay2
  exact band_apply 0 slices_S2048x15_o0_0_S2048x5 y w p c c' hc

/-- The second block product at `(p, c)`: column `5 + c` of the packed weights. -/
theorem pay4_apply (y : Vec Ideal S512x2048 .f32) (w : Vec Ideal S2048x15 .f32) (p : Fin 512) (c : Fin 5)
    (c' : Fin 15) (hc : c'.val = 5 + c.val) :
    k0_pay4 (F := Ideal) y w (ix2 p c) = Cert.Fusion.bandDot (fun k => y (ix2 p k)) w c' := by
  unfold k0_pay4 k0_pay2
  exact band_apply 5 slices_S2048x15_o0_5_S2048x5 y w p c c' hc

/-- The third block product at `(p, c)`: column `10 + c` of the packed weights. -/
theorem pay5_apply (y : Vec Ideal S512x2048 .f32) (w : Vec Ideal S2048x15 .f32) (p : Fin 512) (c : Fin 5)
    (c' : Fin 15) (hc : c'.val = 10 + c.val) :
    k0_pay5 (F := Ideal) y w (ix2 p c) = Cert.Fusion.bandDot (fun k => y (ix2 p k)) w c' := by
  unfold k0_pay5 k0_pay2
  exact band_apply 10 slices_S2048x15_o0_10_S2048x5 y w p c c' hc

/-! ## The gate block -/

/-- The gate's scores as the body adds them: the first three columns of the three block products, left to right, plus
    the bias row repeated down the block. -/
def gateScores (y0 y1 y2 : Vec Ideal S512x2048 .f32) (w : Vec Ideal S2048x15 .f32) (b3 : Vec Ideal S1x3 .f32) :
    FVec Ideal S512x3 .f32 :=
  addf (addf (addf (extractStridedSlice S512x3 ![0, 0] (k0_pay3 (F := Ideal) y0 w) slices_S512x5_o0_0_S512x3)
        (extractStridedSlice S512x3 ![0, 0] (k0_pay4 (F := Ideal) y1 w) slices_S512x5_o0_0_S512x3))
      (extractStridedSlice S512x3 ![0, 0] (k0_pay5 (F := Ideal) y2 w) slices_S512x5_o0_0_S512x3))
    (broadcastTo S512x3 (shapeCast S1x3 b3 shapeCasts_S1x3_S1x3) broadcasts_S1x3_S512x3)

/-- The gate block is the row softmax of those scores. -/
theorem pay6_eq (y0 y1 y2 : Vec Ideal S512x2048 .f32) (w : Vec Ideal S2048x15 .f32) (b3 : Vec Ideal S1x3 .f32) :
    k0_pay6 (F := Ideal) y0 y1 y2 w b3
      = smx (gateScores y0 y1 y2 w b3) reduces_S512x3_S512 shapeCasts_S512_S512x1 broadcasts_S512x1_S512x3 := rfl

/-- The gate's scores at `(p, j)`: the three partial scores of row `p` against columns `j`, `5 + j`, `10 + j` of the
    packed weights, added left to right, plus the bias at `j`. -/
theorem gateScores_apply (y0 y1 y2 : Vec Ideal S512x2048 .f32) (w : Vec Ideal S2048x15 .f32) (b3 : Vec Ideal S1x3 .f32)
    (p : Fin 512) (j : Fin 3) :
    gateScores y0 y1 y2 w b3 (ix2 p j)
      = ((Cert.Fusion.bandDot (fun k => y0 (ix2 p k)) w ⟨j.val, by omega⟩
            + Cert.Fusion.bandDot (fun k => y1 (ix2 p k)) w ⟨5 + j.val, by omega⟩)
          + Cert.Fusion.bandDot (fun k => y2 (ix2 p k)) w ⟨10 + j.val, by omega⟩)
        + b3 (ix2 0 j) := by
  have e1 := (slice_cols_apply 0 (k0_pay3 (F := Ideal) y0 w) slices_S512x5_o0_0_S512x3 p j ⟨j.val, by omega⟩
    (Nat.zero_add _).symm).trans (pay3_apply y0 w p ⟨j.val, by omega⟩ ⟨j.val, by omega⟩ (Nat.zero_add _).symm)
  have e2 := (slice_cols_apply 0 (k0_pay4 (F := Ideal) y1 w) slices_S512x5_o0_0_S512x3 p j ⟨j.val, by omega⟩
    (Nat.zero_add _).symm).trans (pay4_apply y1 w p ⟨j.val, by omega⟩ ⟨5 + j.val, by omega⟩ rfl)
  have e3 := (slice_cols_apply 0 (k0_pay5 (F := Ideal) y2 w) slices_S512x5_o0_0_S512x3 p j ⟨j.val, by omega⟩
    (Nat.zero_add _).symm).trans (pay5_apply y2 w p ⟨j.val, by omega⟩ ⟨10 + j.val, by omega⟩ rfl)
  have e4 : broadcastTo S512x3 (shapeCast S1x3 b3 shapeCasts_S1x3_S1x3) broadcasts_S1x3_S512x3 (ix2 p j)
      = b3 (ix2 0 j) := by
    rw [shapeCast_self]
    exact broadcastTo_1b_ab_apply b3 broadcasts_S1x3_S512x3 p j
  unfold gateScores
  rw [addf_apply, addf_apply, addf_apply, e1, e2, e3, e4]

/-- The gate block at `(p, j)`: the specification's gate of row `p`, at `j`. -/
theorem pay6_apply (y0 y1 y2 : Vec Ideal S512x2048 .f32) (w : Vec Ideal S2048x15 .f32) (b3 : Vec Ideal S1x3 .f32)
    (p : Fin 512) (j : Fin 3) :
    k0_pay6 (F := Ideal) y0 y1 y2 w b3 (ix2 p j)
      = Cert.Fusion.gateOut (fun k => y0 (ix2 p k)) (fun k => y1 (ix2 p k)) (fun k => y2 (ix2 p k)) w b3 j := by
  rw [pay6_eq, smx_apply]
  unfold Cert.Fusion.gateOut
  exact congrArg (fun L => Cert.Fusion.softmax L j) (funext fun j' => gateScores_apply y0 y1 y2 w b3 p j')

/-! ## The classifier's parts and the stored block -/

/-- The third modality's partial classifier scores at `(p, q)`: column `13 + q` of the packed weights. -/
theorem pay7_apply (y2 : Vec Ideal S512x2048 .f32) (w : Vec Ideal S2048x15 .f32) (p : Fin 512) (q : Fin 2) :
    k0_pay7 (F := Ideal) y2 w (ix2 p q) = Cert.Fusion.bandDot (fun k => y2 (ix2 p k)) w ⟨13 + q.val, by omega⟩ := by
  unfold k0_pay7
  exact (slice_cols_apply 3 (k0_pay5 (F := Ideal) y2 w) slices_S512x5_o0_3_S512x2 p q ⟨3 + q.val, by omega⟩ rfl).trans
    (pay5_apply y2 w p ⟨3 + q.val, by omega⟩ ⟨13 + q.val, by omega⟩ (by show 13 + q.val = 10 + (3 + q.val); omega))

/-- Column `j` of the gate block repeated along the rows, at `(p, q)`: the gate of row `p` at `j`. -/
theorem gateCol_apply (y0 y1 y2 : Vec Ideal S512x2048 .f32) (w : Vec Ideal S2048x15 .f32) (b3 : Vec Ideal S1x3 .f32)
    (off : ℕ) (h : S512x3.Slices ![0, off] S512x1) (j : Fin 3) (hj : j.val = off + (0 : Fin 1).val)
    (p : Fin 512) (q : Fin 2) :
    broadcastTo S512x2 (extractStridedSlice S512x1 ![0, off] (k0_pay6 (F := Ideal) y0 y1 y2 w b3) h)
        broadcasts_S512x1_S512x2 (ix2 p q)
      = Cert.Fusion.gateOut (fun k => y0 (ix2 p k)) (fun k => y1 (ix2 p k)) (fun k => y2 (ix2 p k)) w b3 j :=
  (Cert.Lib.broadcastTo_a1_ab_apply _ broadcasts_S512x1_S512x2 p q).trans
    ((slice_cols_apply off (k0_pay6 (F := Ideal) y0 y1 y2 w b3) h p 0 j hj).trans (pay6_apply y0 y1 y2 w b3 p j))

/-- The first two modalities' gated partial classifier scores at `(p, q)`. -/
theorem pay8_apply (y0 y1 y2 : Vec Ideal S512x2048 .f32) (w : Vec Ideal S2048x15 .f32) (b3 : Vec Ideal S1x3 .f32)
    (p : Fin 512) (q : Fin 2) :
    k0_pay8 (F := Ideal) y0 y1 y2 w b3 (ix2 p q)
      = Cert.Fusion.gateOut (fun k => y0 (ix2 p k)) (fun k => y1 (ix2 p k)) (fun k => y2 (ix2 p k)) w b3 0
            * Cert.Fusion.bandDot (fun k => y0 (ix2 p k)) w ⟨3 + q.val, by omega⟩
          + Cert.Fusion.gateOut (fun k => y0 (ix2 p k)) (fun k => y1 (ix2 p k)) (fun k => y2 (ix2 p k)) w b3 1
            * Cert.Fusion.bandDot (fun k => y1 (ix2 p k)) w ⟨8 + q.val, by omega⟩ := by
  have d0 := (slice_cols_apply 3 (k0_pay3 (F := Ideal) y0 w) slices_S512x5_o0_3_S512x2 p q ⟨3 + q.val, by omega⟩ rfl).trans
    (pay3_apply y0 w p ⟨3 + q.val, by omega⟩ ⟨3 + q.val, by omega⟩ (Nat.zero_add _).symm)
  have d1 := (slice_cols_apply 3 (k0_pay4 (F := Ideal) y1 w) slices_S512x5_o0_3_S512x2 p q ⟨3 + q.val, by omega⟩ rfl).trans
    (pay4_apply y1 w p ⟨3 + q.val, by omega⟩ ⟨8 + q.val, by omega⟩ (by show 8 + q.val = 5 + (3 + q.val); omega))
  have g0 := gateCol_apply y0 y1 y2 w b3 0 slices_S512x3_o0_0_S512x1 0 rfl p q
  have g1 := gateCol_apply y0 y1 y2 w b3 1 slices_S512x3_o0_1_S512x1 1 rfl p q
  unfold k0_pay8
  rw [addf_apply, mulf_apply, mulf_apply, d0, d1, g0, g1]

/-- The third gate column repeated along the rows, at `(p, q)`: the gate of row `p` at 2. -/
theorem pay9_apply (y0 y1 y2 : Vec Ideal S512x2048 .f32) (w : Vec Ideal S2048x15 .f32) (b3 : Vec Ideal S1x3 .f32)
    (p : Fin 512) (q : Fin 2) :
    k0_pay9 (F := Ideal) y0 y1 y2 w b3 (ix2 p q)
      = Cert.Fusion.gateOut (fun k => y0 (ix2 p k)) (fun k => y1 (ix2 p k)) (fun k => y2 (ix2 p k)) w b3 2 := by
  unfold k0_pay9
  exact gateCol_apply y0 y1 y2 w b3 2 slices_S512x3_o0_2_S512x1 2 rfl p q

/-- The classifier's scores as the body adds them from its three parts and the bias row. -/
def outScores (v33 v40 v42 : FVec Ideal S512x2 .f32) (b2 : Vec Ideal S1x2 .f32) : FVec Ideal S512x2 .f32 :=
  addf (addf v40 (mulf v42 v33)) (broadcastTo S512x2 (shapeCast S1x2 b2 shapeCasts_S1x2_S1x2) broadcasts_S1x2_S512x2)

/-- The stored block is the row softmax of those scores. -/
theorem pay1_eq (v33 v40 v42 : FVec Ideal S512x2 .f32) (b2 : Vec Ideal S1x2 .f32) :
    k0_pay1 (F := Ideal) v33 v40 v42 b2
      = smx (outScores v33 v40 v42 b2) reduces_S512x2_S512 shapeCasts_S512_S512x1 broadcasts_S512x1_S512x2 := rfl

/-- The stored block at `(p, q)`: the specification's row function of row `p` of the three feature blocks, at `q`. -/
theorem pay_apply (y0 y1 y2 : Vec Ideal S512x2048 .f32) (w : Vec Ideal S2048x15 .f32) (b3 : Vec Ideal S1x3 .f32) (b2 : Vec Ideal S1x2 .f32)
    (p : Fin 512) (q : Fin 2) :
    k0_pay1 (F := Ideal) (k0_pay7 y2 w) (k0_pay8 y0 y1 y2 w b3) (k0_pay9 y0 y1 y2 w b3) b2 (ix2 p q)
      = Cert.Fusion.rowOut (fun k => y0 (ix2 p k)) (fun k => y1 (ix2 p k)) (fun k => y2 (ix2 p k)) w b3 b2 q := by
  rw [pay1_eq, smx_apply]
  unfold Cert.Fusion.rowOut
  refine congrArg (fun L => Cert.Fusion.softmax L q) (funext fun q' => ?_)
  have eb : broadcastTo S512x2 (shapeCast S1x2 b2 shapeCasts_S1x2_S1x2) broadcasts_S1x2_S512x2 (ix2 p q')
      = b2 (ix2 0 q') := by
    rw [shapeCast_self]
    exact broadcastTo_1b_ab_apply b2 broadcasts_S1x2_S512x2 p q'
  unfold outScores
  rw [addf_apply, addf_apply, mulf_apply, eb, pay7_apply, pay8_apply, pay9_apply]

end Cert.KernelIdeal.PayRow

end
-- ==== Proof.LibNary3.lean ====
/-
  A host operation over a LITERAL family of three operands (a join of three arrays along an axis), read after it has run:
  the operation's function applied to each operand's contents AT ITS OWN BUFFER.  In the general statement the contents
  of operand `k` are named through the family at a bound `k`, where no further rewriting can look the buffer up; with
  the three buffers spelled out the contents of each can be rewritten in turn.  `after_results3` is the library's
  one-buffer-after-a-line rewriting loop with this reading tried before the general one.
-/
import Idealize.ShloMosaic.Lib.StableHlo.Run

noncomputable section

namespace Idealize.ShloMosaic.StableHlo

variable {τ : Topo} {sig : RefSig} {Val : EltTy → Type}

/-- The result of a three-operand operation, with each operand's contents at its own buffer. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- What one buffer holds after a line of host operations, rewritten operation by operation; a three-operand operation
    is read with its operands' buffers spelled out. -/
macro "after_results3" : tactic =>
  `(tactic| (simp only [after_cons, after_nil]
             repeat (first
               | rw [nullary_result] | rw [unary_result] | rw [binary_result] | rw [ternary_result] | rw [quaternary_result]
               | rw [reshape_result] | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo

end
-- ==== Proof.EntryArrays.lean ====
/-
  What the region finds in the three arrays the host operations prepare for it, at the ideal instance.

  The packed weight array [2048, 15] is the join, along the columns, of three bands of five columns, one per modality;
  band `b` is the join of rows `2048 b … 2048 b + 2047` of the gate weights (three columns) and of the classifier
  weights (two columns).  Read at row `k`, column `c`: band `c / 5`, column `c % 5` of it, which is a gate weight when
  below three and a classifier weight otherwise — the specification's `packW`.  The two bias arrays are the bias
  vectors laid out as one-row matrices.
-/
import proofs.«105733_j44985487458840_2_alg».proof.Proof.FrameKernelIdeal
import proofs.«105733_j44985487458840_2_alg».proof.Proof.Spec
import proofs.«105733_j44985487458840_2_alg».proof.Proof.LibNary3
import Idealize.ShloMosaic.Lib.Pipeline.Value
import Idealize.ShloMosaic.Lib.ValueIdx
import Idealize.ShloMosaic.Lib.StableHlo.Run

set_option maxRecDepth 16384

noncomputable section

namespace Cert.KernelIdeal.Entry

open Cert.KernelIdeal Cert.KernelIdeal.Gen Cert.KernelIdeal.Hand
open Idealize.ShloMosaic Idealize.ShloMosaic.TcCoe Idealize.SL.Sem Idealize.ShloMosaic.StableHlo Idealize.ShloMosaic.ValueIdx

/-- One modality's band of five columns: rows `off … off + 2047` of the gate weights beside the same rows of the
    classifier weights. -/
def band (off : Nat) (h3 : S6144x3.Slices ![off, 0] S2048x3) (h2 : S6144x2.Slices ![off, 0] S2048x2)
    (w3 : S6144x3.Idx → EReal) (w5 : S6144x2.Idx → EReal) : S2048x5.Idx → EReal :=
  concatenate S2048x5 1 [⟨S2048x3, extractStridedSlice S2048x3 ![off, 0] w3 h3⟩, ⟨S2048x2, extractStridedSlice S2048x2 ![off, 0] w5 h2⟩]
    concatenates_S2048x3_S2048x2_S2048x5_d1

/-- A band read at row `k`, column `j`. -/
theorem band_apply (off : Nat) (h3 : S6144x3.Slices ![off, 0] S2048x3) (h2 : S6144x2.Slices ![off, 0] S2048x2)
    (w3 : S6144x3.Idx → EReal) (w5 : S6144x2.Idx → EReal) (k : Fin 2048) (j : Fin 5) (hoff : off + 2048 ≤ 6144) :
    band off h3 h2 w3 w5 (ix2 k j)
      = if h : j.val < 3 then w3 (ix2 (⟨off + k.val, by omega⟩ : Fin 6144) (⟨j.val, h⟩ : Fin 3))
        else w5 (ix2 (⟨off + k.val, by omega⟩ : Fin 6144) (⟨j.val - 3, by omega⟩ : Fin 2)) := by
  unfold band
  by_cases h : j.val < 3
  · rw [dif_pos h]
    refine (concatenate_pair_apply_left (s₁ := S2048x3) (s₂ := S2048x2) (1 : Fin 2) _ _ _ (ix2 k j) (rfl : S2048x3.rank = S2048x5.rank) (ix2 k (⟨j.val, h⟩ : Fin 3)) ?_).trans ?_
    · intro b; match b with
      | ⟨0, _⟩ => rfl
      | ⟨1, _⟩ => rfl
    · refine extractStridedSlice_apply _ w3 h3 _ _ (fun a => ?_)
      match a with
      | ⟨0, _⟩ => rfl
      | ⟨1, _⟩ => exact (Nat.zero_add _).symm
  · rw [dif_neg h]
    refine (concatenate_pair_apply_right (s₁ := S2048x3) (s₂ := S2048x2) (1 : Fin 2) _ _ _ (ix2 k j) (rfl : S2048x3.rank = S2048x5.rank) (rfl : S2048x2.rank = S2048x5.rank) (ix2 k (⟨j.val - 3, by omega⟩ : Fin 2)) ?_ ?_).trans ?_
    · intro b hb; match b with
      | ⟨0, _⟩ => rfl
      | ⟨1, _⟩ => exact absurd rfl hb
    · show (j.val - 3) + 3 = j.val
      omega
    · refine extractStridedSlice_apply _ w5 h2 _ _ (fun a => ?_)
      match a with
      | ⟨0, _⟩ => rfl
      | ⟨1, _⟩ => exact (Nat.zero_add _).symm

/-- The three bands side by side. -/
def packed (w3 : S6144x3.Idx → EReal) (w5 : S6144x2.Idx → EReal) : S2048x15.Idx → EReal :=
  concatenate S2048x15 1
    [⟨S2048x5, band 0 slices_S6144x3_S2048x3_0_0 slices_S6144x2_S2048x2_0_0 w3 w5⟩,
     ⟨S2048x5, band 2048 slices_S6144x3_S2048x3_2048_0 slices_S6144x2_S2048x2_2048_0 w3 w5⟩,
     ⟨S2048x5, band 4096 slices_S6144x3_S2048x3_4096_0 slices_S6144x2_S2048x2_4096_0 w3 w5⟩]
    concatenates_S2048x5_S2048x5_S2048x5_S2048x15_d1

/-- The packed array read at an index is the specification's packing. -/
theorem packed_apply (w3 : S6144x3.Idx → EReal) (w5 : S6144x2.Idx → EReal) (k : Fin 2048) (c : Fin 15) :
    packed w3 w5 (ix2 k c) = Cert.Fusion.packW w3 w5 (ix2 k c) := by
  have hc := c.isLt
  have hk := k.isLt
  have key : ∀ (b : Nat) (hb3 : b < 3) (hcb : c.val / 5 = b) (h3 : S6144x3.Slices ![2048 * b, 0] S2048x3) (h2 : S6144x2.Slices ![2048 * b, 0] S2048x2),
      band (2048 * b) h3 h2 w3 w5 (ix2 k (⟨c.val % 5, by omega⟩ : Fin 5)) = Cert.Fusion.packW w3 w5 (ix2 k c) := by
    intro b hb3 hcb h3 h2
    rw [band_apply _ _ _ _ _ _ _ (by omega)]
    simp only [Cert.Fusion.packW]
    by_cases h : c.val % 5 < 3
    · rw [dif_pos h, dif_pos (show ((ix2 k c : (⟨2, ![2048, 15]⟩ : Shape).Idx) 1).val % 5 < 3 from h)]
      refine congrArg w3 (funext fun a => Fin.ext ?_)
      match a with
      | ⟨0, _⟩ => show 2048 * b + k.val = 2048 * (c.val / 5) + k.val; rw [hcb]
      | ⟨1, _⟩ => rfl
    · rw [dif_neg h, dif_neg (show ¬ ((ix2 k c : (⟨2, ![2048, 15]⟩ : Shape).Idx) 1).val % 5 < 3 from h)]
      refine congrArg w5 (funext fun a => Fin.ext ?_)
      match a with
      | ⟨0, _⟩ => show 2048 * b + k.val = 2048 * (c.val / 5) + k.val; rw [hcb]
      | ⟨1, _⟩ => rfl
  unfold packed
  obtain hb | hb | hb : c.val / 5 = 0 ∨ c.val / 5 = 1 ∨ c.val / 5 = 2 := by omega
  · refine (concatenate_apply_piece (1 : Fin 2) _ _ (ix2 k c) 0 (by show (0 : ℕ) < 3; omega) S2048x5 _ rfl (rfl : S2048x5.rank = S2048x15.rank) 0 rfl
      (ix2 k (⟨c.val % 5, by omega⟩ : Fin 5)) ?_ ?_).trans (key 0 (by omega) hb _ _)
    · intro b hb'; match b with
      | ⟨0, _⟩ => rfl
      | ⟨1, _⟩ => exact absurd rfl hb'
    · show 0 + c.val % 5 = c.val
      omega
  · refine (concatenate_apply_piece (1 : Fin 2) _ _ (ix2 k c) 1 (by show (1 : ℕ) < 3; omega) S2048x5 _ rfl (rfl : S2048x5.rank = S2048x15.rank) 5 rfl
      (ix2 k (⟨c.val % 5, by omega⟩ : Fin 5)) ?_ ?_).trans (key 1 (by omega) hb _ _)
    · intro b hb'; match b with
      | ⟨0, _⟩ => rfl
      | ⟨1, _⟩ => exact absurd rfl hb'
    · show 5 + c.val % 5 = c.val
      omega
  · refine (concatenate_apply_piece (1 : Fin 2) _ _ (ix2 k c) 2 (by show (2 : ℕ) < 3; omega) S2048x5 _ rfl (rfl : S2048x5.rank = S2048x15.rank) 10 rfl
      (ix2 k (⟨c.val % 5, by omega⟩ : Fin 5)) ?_ ?_).trans (key 2 (by omega) hb _ _)
    · intro b hb'; match b with
      | ⟨0, _⟩ => rfl
      | ⟨1, _⟩ => exact absurd rfl hb'
    · show 10 + c.val % 5 = c.val
      omega

theorem packed_eq (w3 : S6144x3.Idx → EReal) (w5 : S6144x2.Idx → EReal) : packed w3 w5 = Cert.Fusion.packW w3 w5 := by
  funext i
  obtain ⟨k, c, rfl⟩ : ∃ (k : Fin 2048) (c : Fin 15), i = ix2 k c := ⟨i 0, i 1, eq_ix2 i⟩
  exact packed_apply w3 w5 k c

variable (m : (ℓ : Loc nD τ sig) → Buf (Elt Ideal) ℓ)

/-- The region finds the packed weights in its fourth window's array. -/
theorem entry_weights (c : Dev nD) :
    (atEntry (F := Ideal) m c main_v9 : S2048x15.Idx → EReal)
      = Cert.Fusion.packW (m ((c : Thread nD τ).loc main_arg3)) (m ((c : Thread nD τ).loc main_arg5)) := by
  rw [← packed_eq]
  dsimp only [atEntry, hostOps0]
  after_results3
  rfl

/-- A vector of length `n` reshaped to one row reads entry `j` at (0, j). -/
theorem row_of_vector {n : Nat} (b : (⟨1, ![n]⟩ : Shape).Idx → EReal) (h : (⟨1, ![n]⟩ : Shape).ShapeCasts ⟨2, ![1, n]⟩) :
    shapeCast (⟨2, ![1, n]⟩ : Shape) b h = Cert.Fusion.asRow b := by
  funext i
  obtain ⟨u, j, rfl⟩ : ∃ (u : Fin 1) (j : Fin n), i = ix2 u j := ⟨i 0, i 1, eq_ix2 i⟩
  refine shapeCast_apply b h _ (ix1 j) ?_
  rw [Shape.rowMajor_val_one, Shape.rowMajor_val_two]
  have hu : u.val = 0 := by omega
  show j.val = u.val * n + j.val
  rw [hu, Nat.zero_mul, Nat.zero_add]

/-- The region finds the gate bias as a one-row matrix. -/
theorem entry_bias3 (c : Dev nD) :
    (atEntry (F := Ideal) m c main_v10 : S1x3.Idx → EReal) = Cert.Fusion.asRow (m ((c : Thread nD τ).loc main_arg4)) := by
  rw [← row_of_vector (m ((c : Thread nD τ).loc main_arg4)) shapeCasts_S3_S1x3]
  dsimp only [atEntry, hostOps0]
  after_results3
  rfl

/-- The region finds the classifier bias as a one-row matrix. -/
theorem entry_bias2 (c : Dev nD) :
    (atEntry (F := Ideal) m c main_v11 : S1x2.Idx → EReal) = Cert.Fusion.asRow (m ((c : Thread nD τ).loc main_arg6)) := by
  rw [← row_of_vector (m ((c : Thread nD τ).loc main_arg6)) shapeCasts_S2_S1x2]
  dsimp only [atEntry, hostOps0]
  after_results3
  rfl

end Cert.KernelIdeal.Entry

end
-- ==== Proof.KernelValue.lean ====
/-
  The result array after the kernel's run, at the ideal instance, as ONE function of the arrays the region finds.

  Grid point `t` stores, over the whole [512, 2] output block, the body's value of the blocks it loaded: rows
  `512 t … 512 t + 511` of each feature array and the whole packed weights and bias rows.  Read at row `p` of the
  block that value is the specification's row function `rowOut` of row `512 t + p` of the three feature arrays; so
  what point `t` writes back is block `t` of the array `wholeOut` whose row `r` is `rowOut` of row `r`.  The 32 blocks tile
  the [16384, 2] result (row `r` lies in block `r / 512`), hence the result array ends equal to `wholeOut`.
-/
import proofs.«105733_j44985487458840_2_alg».proof.Proof.FrameKernelIdeal
import proofs.«105733_j44985487458840_2_alg».proof.Proof.Spec
import proofs.«105733_j44985487458840_2_alg».proof.Proof.PayRow
import proofs.«105733_j44985487458840_2_alg».proof.Proof.EntryArrays
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Hand Cert.KernelIdeal.Entry
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Row `r` of a [16384, 2048] array. -/
def rowOf (x : S16384x2048.Idx → EReal) (r : Fin 16384) : Fin 2048 → EReal := fun k => x (ix2 r k)

/-- The result array as one function of the arrays the region finds: row `r` is the row function of row `r` of the
    three feature arrays, against the packed weights and the bias rows. -/
def wholeOut (c : Dev nD) : S16384x2.Idx → EReal := fun i =>
  Cert.Fusion.rowOut
    (rowOf (atEntry m c main_arg0) ⟨(i 0).val, (i 0).isLt⟩) (rowOf (atEntry m c main_arg1) ⟨(i 0).val, (i 0).isLt⟩)
    (rowOf (atEntry m c main_arg2) ⟨(i 0).val, (i 0).isLt⟩)
    (atEntry m c main_v9) (atEntry m c main_v10) (atEntry m c main_v11) ⟨(i 1).val, (i 1).isLt⟩

theorem zeroOffsets : (![0, 0] : Fin 2 → Nat) = fun _ => 0 := funext fun a => by fin_cases a <;> rfl

/-- The printed index maps, decided over the 32 grid points: the three feature windows and the output window sit at
    block row `t`, block column 0; the weights and the two bias rows stay at block (0, 0). -/
theorem blockIndices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What grid point `t` writes back is block `t` of `wholeOut`. -/
theorem flushed_eq (c : Dev nD) (t : Fin cfg0.N) :
    (pdat m 0 c).flushed 6 t = ((cfg0.win 6).blk t).view.read (Elt Ideal) (wholeOut m c) := by
  show (cfg0.win 6).cut (grid0.coords t) ((pdat m 0 c).after 6 t) = _
  rw [after6]
  unfold stored
  rw [View.canon_unit_zero zeroOffsets]
  simp only [View.ld_unit_zero (S := S512x2048) zeroOffsets, View.ld_unit_zero (S := S2048x15) zeroOffsets,
    View.ld_unit_zero (S := S1x3) zeroOffsets, View.ld_unit_zero (S := S1x2) zeroOffsets]
  obtain ⟨e00, e01, e10, e11, e20, e21, e30, e31, e40, e41, e50, e51, e60, e61⟩ := blockIndices t
  have ht : t.val < 32 := lt_of_lt_of_eq t.isLt N_0
  funext j
  obtain ⟨p, q, rfl⟩ : ∃ (p : Fin 512) (q : Fin 2), j = ix2 p q := ⟨j 0, j 1, eq_ix2 j⟩
  have hp := p.isLt
  have hq := q.isLt
  refine (PayRow.pay_apply (blockAt m c 0 t) (blockAt m c 1 t) (blockAt m c 2 t) (blockAt m c 3 t) (blockAt m c 4 t)
    (blockAt m c 5 t) p q).trans ?_
  -- each feature block's row `p` is row `512 t + p` of its array
  have hA0 : (fun k : Fin 2048 => blockAt m c 0 t (ix2 p k)) = rowOf (atEntry m c main_arg0) ⟨t.val * 512 + p.val, by omega⟩ := by
    funext k
    have hk := k.isLt
    show atEntry m c main_arg0 (((cfg0.win 0).blk t).view.emb (ix2 p k)) = atEntry m c main_arg0 (ix2 (⟨t.val * 512 + p.val, by omega⟩ : Fin 16384) k)
    refine congrArg _ (funext fun a => Fin.ext ?_)
    match a with
    | ⟨0, _⟩ => show win0_0.index t (0 : Fin 2) * 512 + 1 * p.val = t.val * 512 + p.val; omega
    | ⟨1, _⟩ => show win0_0.index t (1 : Fin 2) * 2048 + 1 * k.val = k.val; omega
  have hA1 : (fun k : Fin 2048 => blockAt m c 1 t (ix2 p k)) = rowOf (atEntry m c main_arg1) ⟨t.val * 512 + p.val, by omega⟩ := by
    funext k
    have hk := k.isLt
    show atEntry m c main_arg1 (((cfg0.win 1).blk t).view.emb (ix2 p k)) = atEntry m c main_arg1 (ix2 (⟨t.val * 512 + p.val, by omega⟩ : Fin 16384) k)
    refine congrArg _ (funext fun a => Fin.ext ?_)
    match a with
    | ⟨0, _⟩ => show win0_1.index t (0 : Fin 2) * 512 + 1 * p.val = t.val * 512 + p.val; omega
    | ⟨1, _⟩ => show win0_1.index t (1 : Fin 2) * 2048 + 1 * k.val = k.val; omega
  have hA2 : (fun k : Fin 2048 => blockAt m c 2 t (ix2 p k)) = rowOf (atEntry m c main_arg2) ⟨t.val * 512 + p.val, by omega⟩ := by
    funext k
    have hk := k.isLt
    show atEntry m c main_arg2 (((cfg0.win 2).blk t).view.emb (ix2 p k)) = atEntry m c main_arg2 (ix2 (⟨t.val * 512 + p.val, by omega⟩ : Fin 16384) k)
    refine congrArg _ (funext fun a => Fin.ext ?_)
    match a with
    | ⟨0, _⟩ => show win0_2.index t (0 : Fin 2) * 512 + 1 * p.val = t.val * 512 + p.val; omega
    | ⟨1, _⟩ => show win0_2.index t (1 : Fin 2) * 2048 + 1 * k.val = k.val; omega
  -- the weights' and the bias rows' one block is the whole array
  have hW : blockAt m c 3 t = atEntry m c main_v9 := by
    funext y
    show atEntry m c main_v9 (((cfg0.win 3).blk t).view.emb y) = atEntry m c main_v9 y
    refine congrArg _ (funext fun a => Fin.ext ?_)
    match a with
    | ⟨0, _⟩ => show win0_3.index t (0 : Fin 2) * 2048 + 1 * (y 0).val = (y 0).val; omega
    | ⟨1, _⟩ => show win0_3.index t (1 : Fin 2) * 15 + 1 * (y 1).val = (y 1).val; omega
  have hB3 : blockAt m c 4 t = atEntry m c main_v10 := by
    funext y
    show atEntry m c main_v10 (((cfg0.win 4).blk t).view.emb y) = atEntry m c main_v10 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 3 + 1 * (y 1).val = (y 1).val; omega
  have hB2 : blockAt m c 5 t = atEntry m c main_v11 := by
    funext y
    show atEntry m c main_v11 (((cfg0.win 5).blk t).view.emb y) = atEntry m c main_v11 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 2 + 1 * (y 1).val = (y 1).val; omega
  rw [hA0, hA1, hA2, hW, hB3, hB2]
  -- the output block's entry (p, q) is entry (512 t + p, q) of the result array
  show _ = wholeOut m c (((cfg0.win 6).blk t).view.emb (ix2 p q))
  unfold wholeOut
  have hr : (⟨((((cfg0.win 6).blk t).view.emb (ix2 p q)) 0).val, ((((cfg0.win 6).blk t).view.emb (ix2 p q)) 0).isLt⟩ : Fin 16384)
      = ⟨t.val * 512 + p.val, by omega⟩ := by
    apply Fin.ext
    show win0_6.index t (0 : Fin 2) * 512 + 1 * p.val = t.val * 512 + p.val
    omega
  have hqq : (⟨((((cfg0.win 6).blk t).view.emb (ix2 p q)) 1).val, ((((cfg0.win 6).blk t).view.emb (ix2 p q)) 1).isLt⟩ : Fin 2) = q := by
    apply Fin.ext
    show win0_6.index t (1 : Fin 2) * 2 + 1 * q.val = q.val
    omega
  rw [hr, hqq]

/-- An index of the result array is in point `t`'s block iff each coordinate is in the block's range on its axis. -/
theorem mem_block (t : Fin cfg0.N) (i : S16384x2.Idx) :
    i ∈ ((cfg0.win 6).blk t).view.set ↔ ∀ a : Fin 2, win0_6.index t a * S512x2.size a ≤ (i a).val ∧ (i a).val < win0_6.index t a * S512x2.size a + S512x2.size a := by
  show i ∈ ((View.whole main_v12).slice (win0_6.rect t)).set ↔ _
  rw [View.set_slice_whole, Rect.mem_set_unit]
  exact Iff.rfl

/-- Every index of the result array lies in the block of point `r / 512`. -/
theorem covered (i : S16384x2.Idx) : ∃ t : Fin cfg0.N, (cfg0.win 6).flush t = true ∧ i ∈ ((cfg0.win 6).blk t).view.set := by
  have hi0 : (i 0).val < 16384 := (i 0).isLt
  have hi1 : (i 1).val < 2 := (i 1).isLt
  have hlt : (i 0).val / 512 < cfg0.N := lt_of_lt_of_eq (show (i 0).val / 512 < 32 by omega) N_0.symm
  refine ⟨⟨(i 0).val / 512, hlt⟩, flush0_6 _, ?_⟩
  rw [mem_block]
  obtain ⟨-, -, -, -, -, -, -, -, -, -, -, -, e60, e61⟩ := blockIndices ⟨(i 0).val / 512, hlt⟩
  have e60' : win0_6.index ⟨(i 0).val / 512, hlt⟩ (0 : Fin 2) = (i 0).val / 512 := e60
  intro a
  match a with
  | ⟨0, _⟩ =>
    show win0_6.index ⟨(i 0).val / 512, hlt⟩ (0 : Fin 2) * 512 ≤ (i 0).val ∧ (i 0).val < win0_6.index ⟨(i 0).val / 512, hlt⟩ (0 : Fin 2) * 512 + 512
    omega
  | ⟨1, _⟩ =>
    show win0_6.index ⟨(i 0).val / 512, hlt⟩ (1 : Fin 2) * 2 ≤ (i 1).val ∧ (i 1).val < win0_6.index ⟨(i 0).val / 512, hlt⟩ (1 : Fin 2) * 2 + 2
    omega

/-- The result array after the run. -/
theorem final (c : Dev nD) : (pdat m 0 c).arrAt 6 cfg0.N = wholeOut m c :=
  (pdat m 0 c).arrAt_eq_of_cover 6 (wholeOut m c) (fun t _ => flushed_eq m c t) covered

/-- `wholeOut` in terms of the launch contents of the seven arguments: the region finds the feature arrays as launched,
    the weights packed and the biases as rows. -/
theorem wholeOut_eq (c : Dev nD) : wholeOut m c = fun i =>
    Cert.Fusion.rowOut
      (rowOf (m ((c : Thread nD τ).loc main_arg0)) ⟨(i 0).val, (i 0).isLt⟩) (rowOf (m ((c : Thread nD τ).loc main_arg1)) ⟨(i 0).val, (i 0).isLt⟩)
      (rowOf (m ((c : Thread nD τ).loc main_arg2)) ⟨(i 0).val, (i 0).isLt⟩)
      (Cert.Fusion.packW (m ((c : Thread nD τ).loc main_arg3)) (m ((c : Thread nD τ).loc main_arg5)))
      (Cert.Fusion.asRow (m ((c : Thread nD τ).loc main_arg4))) (Cert.Fusion.asRow (m ((c : Thread nD τ).loc main_arg6)))
      ⟨(i 1).val, (i 1).isLt⟩ := by
  unfold wholeOut
  rw [atEntry_arg0, atEntry_arg1, atEntry_arg2, entry_weights, entry_bias3, entry_bias2]

/-- The kernel's run with the result array named and the arguments unchanged. -/
theorem run : θ_run defs (onTc (τ := τ) (main (F := Ideal))) ⟨m, fun _ => 0, ρ⟩ fun r => ∀ c : Dev nD,
      r.2.mem ((c.tc : Thread nD τ).loc main_v12) = wholeOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 6).trans (final m c),
      ((h c).1 0).trans (((pdat m 0 c).arrAt_in 0 rfl _).trans ((pdat_A m c 0).trans (atEntry_arg0 m c))),
      ((h c).1 1).trans (((pdat m 0 c).arrAt_in 1 rfl _).trans ((pdat_A m c 1).trans (atEntry_arg1 m c))),
      ((h c).1 2).trans (((pdat m 0 c).arrAt_in 2 rfl _).trans ((pdat_A m c 2).trans (atEntry_arg2 m c))),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c)⟩)
    (run_main m ρ)

end Cert.KernelIdeal.Whole

end
-- ==== Proof.RefRow.lean ====
/-
  The reference program's result, read one element at a time.

  For a row r of the batch and a class q, the element (r, q) of the reference's final array is the specification's
  row function `refRow` applied to row r of the three feature arrays, the two weight matrices and the two biases.
  No finiteness is needed: every step is a re-reading of one operation at an index.

  The steps.  (1) Three arrays of 2048 columns joined along the columns read, at column k, the array whose band of
  columns holds k, at k less the columns before it: row r of the join is `cat3` of the three rows r.  (2) A
  maximum-reduce along the rows that starts at −∞ is, at row r, the running maximum of that row started at −∞; the
  reference then takes the larger of −∞ and it, which is `rowMax`.  (3) The gate scores of row r are the contraction
  of the joined row with the gate weights plus the bias; shifting by their `rowMax`, exponentiating, and dividing by
  the sum (the sum starts at 0) gives their `softmax`.  (4) Each feature array times its gate entry, the three
  joined again, contracted with the classifier weights plus the bias, gives the classifier scores of row r, and
  the same shift, exponential and division give their `softmax`: the row function.
-/
import proofs.«105733_j44985487458840_2_alg».proof.Proof.RefReadP
import proofs.«105733_j44985487458840_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefRow

open Idealize.ShloMosaic Idealize.ShloMosaic.ValueIdx
open Cert.Fusion

/-- Three arrays of 2048 columns joined along the columns: row r of the join is the join of the three rows. -/
theorem concat3_apply {R : Nat} (y0 y1 y2 : (⟨2, ![R, 2048]⟩ : Shape).Idx → EReal)
    (h : Shape.Concatenates [(⟨2, ![R, 2048]⟩ : Shape), ⟨2, ![R, 2048]⟩, ⟨2, ![R, 2048]⟩] ⟨2, ![R, 6144]⟩ 1)
    (r : Fin R) (k : Fin 6144) :
    concatenate (⟨2, ![R, 6144]⟩ : Shape) 1 [⟨⟨2, ![R, 2048]⟩, y0⟩, ⟨⟨2, ![R, 2048]⟩, y1⟩, ⟨⟨2, ![R, 2048]⟩, y2⟩] h (ix2 r k)
      = cat3 (fun k => y0 (ix2 r k)) (fun k => y1 (ix2 r k)) (fun k => y2 (ix2 r k)) k := by
  have hk := k.isLt
  unfold cat3
  split
  · next h0 =>
    refine concatenate_apply_piece (t := ⟨2, ![R, 6144]⟩) 1
      [⟨⟨2, ![R, 2048]⟩, y0⟩, ⟨⟨2, ![R, 2048]⟩, y1⟩, ⟨⟨2, ![R, 2048]⟩, y2⟩] h (ix2 r k)
      0 (Nat.zero_lt_succ _) ⟨2, ![R, 2048]⟩ y0 rfl rfl 0 rfl (ix2 r ⟨k.val, h0⟩) ?_ ?_
    · intro b hb
      match b with
      | ⟨0, _⟩ => rfl
      | ⟨1, _⟩ => exact absurd rfl hb
    · show 0 + k.val = k.val
      omega
  · next h0 =>
    split
    · next h1 =>
      refine concatenate_apply_piece (t := ⟨2, ![R, 6144]⟩) 1
        [⟨⟨2, ![R, 2048]⟩, y0⟩, ⟨⟨2, ![R, 2048]⟩, y1⟩, ⟨⟨2, ![R, 2048]⟩, y2⟩] h (ix2 r k)
        1 (Nat.succ_lt_succ (Nat.zero_lt_succ _)) ⟨2, ![R, 2048]⟩ y1 rfl rfl 2048 rfl (ix2 r ⟨k.val - 2048, by omega⟩) ?_ ?_
      · intro b hb
        match b with
        | ⟨0, _⟩ => rfl
        | ⟨1, _⟩ => exact absurd rfl hb
      · show 2048 + (k.val - 2048) = k.val
        omega
    · next h1 =>
      refine concatenate_apply_piece (t := ⟨2, ![R, 6144]⟩) 1
        [⟨⟨2, ![R, 2048]⟩, y0⟩, ⟨⟨2, ![R, 2048]⟩, y1⟩, ⟨⟨2, ![R, 2048]⟩, y2⟩] h (ix2 r k)
        2 (Nat.succ_lt_succ (Nat.succ_lt_succ (Nat.zero_lt_succ _))) ⟨2, ![R, 2048]⟩ y2 rfl rfl 4096 rfl (ix2 r ⟨k.val - 4096, by omega⟩) ?_ ?_
      · intro b hb
        match b with
        | ⟨0, _⟩ => rfl
        | ⟨1, _⟩ => exact absurd rfl hb
      · show 4096 + (k.val - 4096) = k.val
        omega

/-- The row index r with the column coordinate k put back on the reduced axis is (r, k). -/
theorem lift_row {a b : Nat} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A maximum-reduce along the rows of an [a, b] array whose initial value is −∞: at row r, the running maximum of
    that row started at −∞. -/
theorem rowReduceMax_apply {a b : Nat} (x : (⟨2, ![a, b]⟩ : Shape).Idx → Ideal .f32)
    (init : (⟨0, ![]⟩ : Shape).Idx → Ideal .f32) (hinit : ∀ i, init i = (⊥ : EReal))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce (FloatOps.maximumf (F := Ideal) (φ := .f32)) x init h' hu (ix1 r)
      = (Finset.univ : Finset (Fin b)).fold max (⊥ : EReal) (fun k => x (ix2 r k)) := by
  rw [Host.reduce_eq_fold_single (FloatOps.maximumf (F := Ideal) (φ := .f32)) x init h' h hu, hinit]
  have e : (x ∘ h.lift (ix1 r)) = fun k : Fin b => x (ix2 r k) := funext fun k => congrArg x (lift_row h r k)
  rw [e]
  rfl

/-- The bit pattern of −∞ is −∞. -/
theorem ofBits_neg_inf : Ideal.ofBits .f32 0xFF800000#32 = (⊥ : EReal) := by simp [Ideal.ofBits, Ideal.ieee]

/-- The gate's three affine scores of the joined row. -/
def gateScore (a0 a1 a2 : Fin 2048 → EReal) (w3 : Arr2 6144 3) (b4 : Arr1 3) (j : Fin 3) : EReal :=
  (∑ k : Fin 6144, cat3 a0 a1 a2 k * w3 (ix2 k j)) + b4 (ix1 j)

/-- The classifier's two affine scores of the joined row scaled by a gate g. -/
def clsScore (a0 a1 a2 : Fin 2048 → EReal) (g : Fin 3 → EReal) (w5 : Arr2 6144 2) (b6 : Arr1 2) (q : Fin 2) : EReal :=
  (∑ k : Fin 6144, cat3 (fun k => g 0 * a0 k) (fun k => g 1 * a1 k) (fun k => g 2 * a2 k) k * w5 (ix2 k q)) + b6 (ix1 q)

/-- The specification's row function is the softmax of the classifier scores under the softmax gate. -/
theorem refRow_eq (a0 a1 a2 : Fin 2048 → EReal) (w3 : Arr2 6144 3) (b4 : Arr1 3) (w5 : Arr2 6144 2) (b6 : Arr1 2) (q : Fin 2) :
    refRow a0 a1 a2 w3 b4 w5 b6 q = softmax (clsScore a0 a1 a2 (softmax (gateScore a0 a1 a2 w3 b4)) w5 b6) q := rfl

section Chain

open Cert.ReferenceIdeal Cert.ReferenceIdeal.Gen Cert.ReferenceIdeal.ReadP

variable (x0 x1 x2 : (⟨S16384x2048, .f32⟩ : BufTy).Contents (Elt Ideal)) (x3 : (⟨S6144x3, .f32⟩ : BufTy).Contents (Elt Ideal))
  (x4 : (⟨S3, .f32⟩ : BufTy).Contents (Elt Ideal)) (x5 : (⟨S6144x2, .f32⟩ : BufTy).Contents (Elt Ideal))
  (x6 : (⟨S2, .f32⟩ : BufTy).Contents (Elt Ideal)) (r : Fin 16384)

/-- The joined features at (r, k): the join of the three rows r. -/
theorem v0_apply (k : Fin 6144) :
    val_main_v0 (F := Ideal) x0 x1 x2 (ix2 r k)
      = cat3 (fun k => x0 (ix2 r k)) (fun k => x1 (ix2 r k)) (fun k => x2 (ix2 r k)) k := by
  unfold val_main_v0
  exact concat3_apply x0 x1 x2 _ r k

/-- The gate scores at (r, j). -/
theorem v4_apply (j : Fin 3) :
    val_main_v4 (F := Ideal) x0 x1 x2 x3 x4 (ix2 r j)
      = gateScore (fun k => x0 (ix2 r k)) (fun k => x1 (ix2 r k)) (fun k => x2 (ix2 r k)) x3 x4 j := by
  rw [val_main_v4_apply, val_main_v1_apply, val_main_v3_apply, val_main_v2_apply]
  unfold gateScore
  refine congrArg₂ (· + ·) (Finset.sum_congr rfl fun k _ => ?_) (congrArg x4 ?_)
  · have e1 : lidx_main_v1 (ix2 r j) k = ix2 r k :=
      funext fun a => Fin.ext (by match a with | ⟨0, _⟩ => rfl | ⟨1, _⟩ => rfl)
    have e2 : ridx_main_v1 (ix2 r j) k = ix2 k j :=
      funext fun a => Fin.ext (by match a with | ⟨0, _⟩ => rfl | ⟨1, _⟩ => rfl)
    rw [e1, e2, v0_apply]
  · exact funext fun a => Fin.ext (by match a with | ⟨0, _⟩ => rfl)

/-- The running maximum of the gate scores of row r. -/
theorem v7_apply :
    val_main_v7 (F := Ideal) x0 x1 x2 x3 x4 (ix1 r)
      = rowMax (gateScore (fun k => x0 (ix2 r k)) (fun k => x1 (ix2 r k)) (fun k => x2 (ix2 r k)) x3 x4) := by
  have h5 : val_main_v5 (F := Ideal) x0 x1 x2 x3 x4 (ix1 r)
      = (Finset.univ : Finset (Fin 3)).fold max (⊥ : EReal) (fun k => val_main_v4 (F := Ideal) x0 x1 x2 x3 x4 (ix2 r k)) :=
    rowReduceMax_apply (val_main_v4 (F := Ideal) x0 x1 x2 x3 x4) (val_main_cst (F := Ideal)) (fun _ => ofBits_neg_inf)
      reducesTo_S16384x3_S16384_d1 (by decide) h_S_ r
  have e : (fun k : Fin 3 => val_main_v4 (F := Ideal) x0 x1 x2 x3 x4 (ix2 r k))
      = gateScore (fun k => x0 (ix2 r k)) (fun k => x1 (ix2 r k)) (fun k => x2 (ix2 r k)) x3 x4 :=
    funext fun j => v4_apply x0 x1 x2 x3 x4 r j
  rw [val_main_v7_apply, val_main_v6_apply, val_main_cst_0_apply, h5, e]
  unfold rowMax
  exact congrArg (fun t => max t _) ofBits_neg_inf

/-- The shifted, exponentiated gate scores at (r, j). -/
theorem v11_apply (j : Fin 3) :
    val_main_v11 (F := Ideal) x0 x1 x2 x3 x4 (ix2 r j)
      = Ideal.exp (gateScore (fun k => x0 (ix2 r k)) (fun k => x1 (ix2 r k)) (fun k => x2 (ix2 r k)) x3 x4 j
          - rowMax (gateScore (fun k => x0 (ix2 r k)) (fun k => x1 (ix2 r k)) (fun k => x2 (ix2 r k)) x3 x4)) := by
  have e : idx_main_v8 (idx_main_v9 (ix2 r j)) = ix1 r :=
    funext fun a => Fin.ext (by match a with | ⟨0, _⟩ => rfl)
  rw [val_main_v11_apply, val_main_v10_apply, val_main_v9_apply, val_main_v8_apply, v4_apply, e, v7_apply]
  rfl

/-- The gate at (r, j): the softmax of the gate scores of row r. -/
theorem v15_apply (j : Fin 3) :
    val_main_v15 (F := Ideal) x0 x1 x2 x3 x4 (ix2 r j)
      = softmax (gateScore (fun k => x0 (ix2 r k)) (fun k => x1 (ix2 r k)) (fun k => x2 (ix2 r k)) x3 x4) j := by
  have e : idx_main_v13 (idx_main_v14 (ix2 r j)) = ix1 r :=
    funext fun a => Fin.ext (by match a with | ⟨0, _⟩ => rfl)
  have e2 : ∀ k : Fin 3, idx_main_v12 (ix1 r) k = ix2 r k := fun k =>
    funext fun a => Fin.ext (by match a with | ⟨0, _⟩ => rfl | ⟨1, _⟩ => rfl)
  have hs : (∑ k : Fin 3, val_main_v11 (F := Ideal) x0 x1 x2 x3 x4 (idx_main_v12 (ix1 r) k))
      = ∑ k : Fin 3, Ideal.exp (gateScore (fun k => x0 (ix2 r k)) (fun k => x1 (ix2 r k)) (fun k => x2 (ix2 r k)) x3 x4 k
          - rowMax (gateScore (fun k => x0 (ix2 r k)) (fun k => x1 (ix2 r k)) (fun k => x2 (ix2 r k)) x3 x4)) :=
    Finset.sum_congr rfl fun k _ => by rw [e2 k, v11_apply]
  rw [val_main_v15_apply, val_main_v14_apply, val_main_v13_apply, val_main_v12_apply, val_main_cst_1_apply, v11_apply, e, hs,
    Ideal.ofBits_def, Ideal.ofBits_zero_f32, zero_add]
  rfl

/-- The first feature array scaled by the gate, at (r, k). -/
theorem v18_apply (k : Fin 2048) :
    val_main_v18 (F := Ideal) x0 x1 x2 x3 x4 (ix2 r k) = softmax (gateScore (fun k => x0 (ix2 r k)) (fun k => x1 (ix2 r k)) (fun k => x2 (ix2 r k)) x3 x4) 0 * x0 (ix2 r k) := by
  have e : idx_main_v16 (idx_main_v17 (ix2 r k)) = ix2 r (0 : Fin 3) :=
    funext fun a => Fin.ext (by match a with | ⟨0, _⟩ => rfl | ⟨1, _⟩ => rfl)
  rw [val_main_v18_apply, val_main_v17_apply, val_main_v16_apply, e, v15_apply]
  rfl

/-- The second feature array scaled by the gate, at (r, k). -/
theorem v21_apply (k : Fin 2048) :
    val_main_v21 (F := Ideal) x0 x1 x2 x3 x4 (ix2 r k) = softmax (gateScore (fun k => x0 (ix2 r k)) (fun k => x1 (ix2 r k)) (fun k => x2 (ix2 r k)) x3 x4) 1 * x1 (ix2 r k) := by
  have e : idx_main_v19 (idx_main_v20 (ix2 r k)) = ix2 r (1 : Fin 3) :=
    funext fun a => Fin.ext (by match a with | ⟨0, _⟩ => rfl | ⟨1, _⟩ => rfl)
  rw [val_main_v21_apply, val_main_v20_apply, val_main_v19_apply, e, v15_apply]
  rfl

/-- The third feature array scaled by the gate, at (r, k). -/
theorem v24_apply (k : Fin 2048) :
    val_main_v24 (F := Ideal) x0 x1 x2 x3 x4 (ix2 r k) = softmax (gateScore (fun k => x0 (ix2 r k)) (fun k => x1 (ix2 r k)) (fun k => x2 (ix2 r k)) x3 x4) 2 * x2 (ix2 r k) := by
  have e : idx_main_v22 (idx_main_v23 (ix2 r k)) = ix2 r (2 : Fin 3) :=
    funext fun a => Fin.ext (by match a with | ⟨0, _⟩ => rfl | ⟨1, _⟩ => rfl)
  rw [val_main_v24_apply, val_main_v23_apply, val_main_v22_apply, e, v15_apply]
  rfl

/-- The joined gate-scaled features at (r, k): the join of the three scaled rows r. -/
theorem v25_apply (k : Fin 6144) :
    val_main_v25 (F := Ideal) x0 x1 x2 x3 x4 (ix2 r k)
      = cat3 (fun k => softmax (gateScore (fun k => x0 (ix2 r k)) (fun k => x1 (ix2 r k)) (fun k => x2 (ix2 r k)) x3 x4) 0 * x0 (ix2 r k)) (fun k => softmax (gateScore (fun k => x0 (ix2 r k)) (fun k => x1 (ix2 r k)) (fun k => x2 (ix2 r k)) x3 x4) 1 * x1 (ix2 r k))
          (fun k => softmax (gateScore (fun k => x0 (ix2 r k)) (fun k => x1 (ix2 r k)) (fun k => x2 (ix2 r k)) x3 x4) 2 * x2 (ix2 r k)) k := by
  have e0 : (fun k : Fin 2048 => val_main_v18 (F := Ideal) x0 x1 x2 x3 x4 (ix2 r k))
      = fun k => softmax (gateScore (fun k => x0 (ix2 r k)) (fun k => x1 (ix2 r k)) (fun k => x2 (ix2 r k)) x3 x4) 0 * x0 (ix2 r k) := funext fun k => v18_apply x0 x1 x2 x3 x4 r k
  have e1 : (fun k : Fin 2048 => val_main_v21 (F := Ideal) x0 x1 x2 x3 x4 (ix2 r k))
      = fun k => softmax (gateScore (fun k => x0 (ix2 r k)) (fun k => x1 (ix2 r k)) (fun k => x2 (ix2 r k)) x3 x4) 1 * x1 (ix2 r k) := funext fun k => v21_apply x0 x1 x2 x3 x4 r k
  have e2 : (fun k : Fin 2048 => val_main_v24 (F := Ideal) x0 x1 x2 x3 x4 (ix2 r k))
      = fun k => softmax (gateScore (fun k => x0 (ix2 r k)) (fun k => x1 (ix2 r k)) (fun k => x2 (ix2 r k)) x3 x4) 2 * x2 (ix2 r k) := funext fun k => v24_apply x0 x1 x2 x3 x4 r k
  unfold val_main_v25
  refine (concat3_apply (val_main_v18 (F := Ideal) x0 x1 x2 x3 x4) (val_main_v21 (F := Ideal) x0 x1 x2 x3 x4)
    (val_main_v24 (F := Ideal) x0 x1 x2 x3 x4) _ r k).trans ?_
  rw [e0, e1, e2]

/-- The classifier scores at (r, q). -/
theorem v29_apply (q : Fin 2) :
    val_main_v29 (F := Ideal) x0 x1 x2 x3 x4 x5 x6 (ix2 r q) = (clsScore (fun k => x0 (ix2 r k)) (fun k => x1 (ix2 r k)) (fun k => x2 (ix2 r k)) (softmax (gateScore (fun k => x0 (ix2 r k)) (fun k => x1 (ix2 r k)) (fun k => x2 (ix2 r k)) x3 x4)) x5 x6) q := by
  rw [val_main_v29_apply, val_main_v26_apply, val_main_v28_apply, val_main_v27_apply]
  unfold clsScore
  refine congrArg₂ (· + ·) (Finset.sum_congr rfl fun k _ => ?_) (congrArg x6 ?_)
  · have e1 : lidx_main_v26 (ix2 r q) k = ix2 r k :=
      funext fun a => Fin.ext (by match a with | ⟨0, _⟩ => rfl | ⟨1, _⟩ => rfl)
    have e2 : ridx_main_v26 (ix2 r q) k = ix2 k q :=
      funext fun a => Fin.ext (by match a with | ⟨0, _⟩ => rfl | ⟨1, _⟩ => rfl)
    rw [e1, e2, v25_apply]
  · exact funext fun a => Fin.ext (by match a with | ⟨0, _⟩ => rfl)

/-- The running maximum of the classifier scores of row r. -/
theorem v32_apply :
    val_main_v32 (F := Ideal) x0 x1 x2 x3 x4 x5 x6 (ix1 r) = rowMax (clsScore (fun k => x0 (ix2 r k)) (fun k => x1 (ix2 r k)) (fun k => x2 (ix2 r k)) (softmax (gateScore (fun k => x0 (ix2 r k)) (fun k => x1 (ix2 r k)) (fun k => x2 (ix2 r k)) x3 x4)) x5 x6) := by
  have h30 : val_main_v30 (F := Ideal) x0 x1 x2 x3 x4 x5 x6 (ix1 r)
      = (Finset.univ : Finset (Fin 2)).fold max (⊥ : EReal) (fun k => val_main_v29 (F := Ideal) x0 x1 x2 x3 x4 x5 x6 (ix2 r k)) :=
    rowReduceMax_apply (val_main_v29 (F := Ideal) x0 x1 x2 x3 x4 x5 x6) (val_main_cst_2 (F := Ideal)) (fun _ => ofBits_neg_inf)
      reducesTo_S16384x2_S16384_d1 (by decide) h_S_ r
  have e : (fun k : Fin 2 => val_main_v29 (F := Ideal) x0 x1 x2 x3 x4 x5 x6 (ix2 r k)) = (clsScore (fun k => x0 (ix2 r k)) (fun k => x1 (ix2 r k)) (fun k => x2 (ix2 r k)) (softmax (gateScore (fun k => x0 (ix2 r k)) (fun k => x1 (ix2 r k)) (fun k => x2 (ix2 r k)) x3 x4)) x5 x6) :=
    funext fun q => v29_apply x0 x1 x2 x3 x4 x5 x6 r q
  rw [val_main_v32_apply, val_main_v31_apply, val_main_cst_3_apply, h30, e]
  unfold rowMax
  exact congrArg (fun t => max t _) ofBits_neg_inf

/-- The shifted, exponentiated classifier scores at (r, q). -/
theorem v36_apply (q : Fin 2) :
    val_main_v36 (F := Ideal) x0 x1 x2 x3 x4 x5 x6 (ix2 r q) = Ideal.exp ((clsScore (fun k => x0 (ix2 r k)) (fun k => x1 (ix2 r k)) (fun k => x2 (ix2 r k)) (softmax (gateScore (fun k => x0 (ix2 r k)) (fun k => x1 (ix2 r k)) (fun k => x2 (ix2 r k)) x3 x4)) x5 x6) q - rowMax (clsScore (fun k => x0 (ix2 r k)) (fun k => x1 (ix2 r k)) (fun k => x2 (ix2 r k)) (softmax (gateScore (fun k => x0 (ix2 r k)) (fun k => x1 (ix2 r k)) (fun k => x2 (ix2 r k)) x3 x4)) x5 x6)) := by
  have e : idx_main_v33 (idx_main_v34 (ix2 r q)) = ix1 r :=
    funext fun a => Fin.ext (by match a with | ⟨0, _⟩ => rfl)
  rw [val_main_v36_apply, val_main_v35_apply, val_main_v34_apply, val_main_v33_apply, v29_apply, e, v32_apply]
  rfl

/-- The classifier at (r, q): the softmax of the classifier scores of row r. -/
theorem v40_apply (q : Fin 2) :
    val_main_v40 (F := Ideal) x0 x1 x2 x3 x4 x5 x6 (ix2 r q) = softmax (clsScore (fun k => x0 (ix2 r k)) (fun k => x1 (ix2 r k)) (fun k => x2 (ix2 r k)) (softmax (gateScore (fun k => x0 (ix2 r k)) (fun k => x1 (ix2 r k)) (fun k => x2 (ix2 r k)) x3 x4)) x5 x6) q := by
  have e : idx_main_v38 (idx_main_v39 (ix2 r q)) = ix1 r :=
    funext fun a => Fin.ext (by match a with | ⟨0, _⟩ => rfl)
  have e2 : ∀ k : Fin 2, idx_main_v37 (ix1 r) k = ix2 r k := fun k =>
    funext fun a => Fin.ext (by match a with | ⟨0, _⟩ => rfl | ⟨1, _⟩ => rfl)
  have hs : (∑ k : Fin 2, val_main_v36 (F := Ideal) x0 x1 x2 x3 x4 x5 x6 (idx_main_v37 (ix1 r) k))
      = ∑ k : Fin 2, Ideal.exp ((clsScore (fun k => x0 (ix2 r k)) (fun k => x1 (ix2 r k)) (fun k => x2 (ix2 r k)) (softmax (gateScore (fun k => x0 (ix2 r k)) (fun k => x1 (ix2 r k)) (fun k => x2 (ix2 r k)) x3 x4)) x5 x6) k - rowMax (clsScore (fun k => x0 (ix2 r k)) (fun k => x1 (ix2 r k)) (fun k => x2 (ix2 r k)) (softmax (gateScore (fun k => x0 (ix2 r k)) (fun k => x1 (ix2 r k)) (fun k => x2 (ix2 r k)) x3 x4)) x5 x6)) :=
    Finset.sum_congr rfl fun k _ => by rw [e2 k, v36_apply]
  rw [val_main_v40_apply, val_main_v39_apply, val_main_v38_apply, val_main_v37_apply, val_main_cst_4_apply, v36_apply, e, hs,
    Ideal.ofBits_def, Ideal.ofBits_zero_f32, zero_add]
  rfl

end Chain

open Cert.ReferenceIdeal Cert.ReferenceIdeal.ReadP in
/-- The reference's result at (r, q) is the specification's row function of row r of the three feature arrays. -/
theorem ref_apply (x0 x1 x2 : (⟨S16384x2048, .f32⟩ : BufTy).Contents (Elt Ideal)) (x3 : (⟨S6144x3, .f32⟩ : BufTy).Contents (Elt Ideal))
    (x4 : (⟨S3, .f32⟩ : BufTy).Contents (Elt Ideal)) (x5 : (⟨S6144x2, .f32⟩ : BufTy).Contents (Elt Ideal)) (x6 : (⟨S2, .f32⟩ : BufTy).Contents (Elt Ideal))
    (r : Fin 16384) (q : Fin 2) :
  val_main_v40 (F := Ideal) x0 x1 x2 x3 x4 x5 x6 (ix2 r q)
    = Cert.Fusion.refRow (fun k => x0 (ix2 r k)) (fun k => x1 (ix2 r k)) (fun k => x2 (ix2 r k)) x3 x4 x5 x6 q :=
  (v40_apply x0 x1 x2 x3 x4 x5 x6 r q).trans (refRow_eq _ _ _ x3 x4 x5 x6 q).symm

end Cert.ReferenceIdeal.RefRow

end
-- ==== Proof.Algebra.lean ====
/-
  The algebra behind the fused kernel, over the extended reals.

  Three general facts are proved first, over an arbitrary finite index set:
    * a softmax of real scores is real (the running maximum of finitely many reals is real, the exponentials are
      real and their sum is a positive real, and division by a nonzero real is multiplication by its reciprocal);
    * a real factor leaves a sum of real products: ∑ (g · a k) · w k = g · ∑ a k · w k;
    * a sum over 6144 = 2048 + 2048 + 2048 indices is the sum of its three blocks (in any additive commutative
      monoid), and against a joined vector each block sees only its own part.
  The packed weight array returns, in column 5 b + j of row k, exactly the entry of row 2048 b + k of the gate
  weights (j < 3) or of the classifier weights (3 ≤ j < 5).  Together these give the equality of the two
  arrangements of the row function under the hypothesis that every input is real.
-/
import proofs.«105733_j44985487458840_2_alg».proof.Proof.Spec
import Mathlib.Algebra.BigOperators.Fin
import Mathlib.Data.Finset.Fold
import Mathlib.Data.EReal.Basic
import Mathlib.Data.EReal.Operations
import Mathlib.Data.EReal.Inv
import Mathlib.Analysis.SpecialFunctions.Exp
import Mathlib.Tactic

noncomputable section

open scoped BigOperators

namespace Cert.Fusion

open Idealize.ShloMosaic Idealize.ShloMosaic.ValueIdx

/-! ### Real-valued extended reals -/

/-- The coercion of a finite sum of reals is the sum of the coercions. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is real. -/
theorem real_sum_mul {ι : Type*} (s : Finset ι) (a w : ι → EReal)
    (ha : ∀ k, ∃ r : ℝ, a k = (r : EReal)) (hw : ∀ k, ∃ r : ℝ, w k = (r : EReal)) :
    ∃ r : ℝ, ∑ k ∈ s, a k * w k = (r : EReal) := by
  choose a' ha' using ha
  choose w' hw' using hw
  refine ⟨∑ k ∈ s, a' k * w' k, ?_⟩
  rw [coe_sum_real]
  exact Finset.sum_congr rfl fun k _ => by rw [ha', hw', EReal.coe_mul]

/-- A real factor leaves a sum of real products. -/
theorem mul_sum_real {ι : Type*} (s : Finset ι) (g : EReal) (a w : ι → EReal)
    (hg : ∃ r : ℝ, g = (r : EReal))
    (ha : ∀ k, ∃ r : ℝ, a k = (r : EReal)) (hw : ∀ k, ∃ r : ℝ, w k = (r : EReal)) :
    ∑ k ∈ s, (g * a k) * w k = g * ∑ k ∈ s, a k * w k := by
  obtain ⟨g', rfl⟩ := hg
  choose a' ha' using ha
  choose w' hw' using hw
  have e1 : ∑ k ∈ s, ((g' : EReal) * a k) * w k = ((∑ k ∈ s, (g' * a' k) * w' k : ℝ) : EReal) := by
    rw [coe_sum_real]
    exact Finset.sum_congr rfl fun k _ => by rw [ha', hw', EReal.coe_mul, EReal.coe_mul]
  have e2 : ∑ k ∈ s, a k * w k = ((∑ k ∈ s, a' k * w' k : ℝ) : EReal) := by
    rw [coe_sum_real]
    exact Finset.sum_congr rfl fun k _ => by rw [ha', hw', EReal.coe_mul]
  rw [e1, e2, ← EReal.coe_mul, Finset.mul_sum]
  exact congrArg _ (Finset.sum_congr rfl fun k _ => by ring)

/-! ### The softmax of real scores -/

/-- The running maximum of a nonempty finite family of reals is real. -/
theorem rowMax_real {n : Nat} (L : Fin n → EReal) (hL : ∀ k, ∃ r : ℝ, L k = (r : EReal)) (j : Fin n) :
    ∃ m : ℝ, rowMax L = (m : EReal) := by
  have htop : rowMax L ≠ ⊤ := by
    refine ne_of_lt ?_
    unfold rowMax
    refine max_lt bot_lt_top ?_
    rw [Finset.fold_max_lt]
    refine ⟨bot_lt_top, fun k _ => ?_⟩
    obtain ⟨r, hr⟩ := hL k
    rw [hr]
    exact EReal.coe_lt_top r
  have hbot : rowMax L ≠ ⊥ := by
    refine ne_of_gt ?_
    obtain ⟨r, hr⟩ := hL j
    refine lt_of_lt_of_le (EReal.bot_lt_coe r) ?_
    unfold rowMax
    refine le_max_of_le_right ?_
    rw [Finset.le_fold_max]
    exact Or.inr ⟨j, Finset.mem_univ j, le_of_eq hr.symm⟩
  exact ⟨(rowMax L).toReal, (EReal.coe_toReal htop hbot).symm⟩

/-- The softmax of real scores is real. -/
theorem softmax_real {n : Nat} (L : Fin n → EReal) (hL : ∀ k, ∃ r : ℝ, L k = (r : EReal)) (j : Fin n) :
    ∃ r : ℝ, softmax L j = (r : EReal) := by
  obtain ⟨m, hm⟩ := rowMax_real L hL j
  choose l hl using hL
  have hexp : ∀ k, Ideal.exp (L k - rowMax L) = ((Real.exp (l k - m) : ℝ) : EReal) := fun k => by
    rw [hl k, hm, ← EReal.coe_sub, Ideal.exp_coe]
  have hsum : ∑ k : Fin n, Ideal.exp (L k - rowMax L) = ((∑ k : Fin n, Real.exp (l k - m) : ℝ) : EReal) := by
    rw [coe_sum_real]
    exact Finset.sum_congr rfl fun k _ => hexp k
  have hpos : (0 : ℝ) < ∑ k : Fin n, Real.exp (l k - m) :=
    Finset.sum_pos (fun k _ => Real.exp_pos _) ⟨j, Finset.mem_univ j⟩
  refine ⟨Real.exp (l j - m) * (1 / ∑ k : Fin n, Real.exp (l k - m)), ?_⟩
  unfold softmax
  rw [hsum, hexp j, Ideal.div_coe (ne_of_gt hpos), ← EReal.coe_mul]

/-! ### Splitting a contraction over the joined axis into its three blocks -/

/-- A sum over `n + n + n` indices is the sum of its three blocks of `n`. -/
theorem sum_three_blocks {M : Type*} [AddCommMonoid M] (n : Nat) (f : Fin (n + n + n) → M) :
    ∑ k, f k = (∑ k : Fin n, f ⟨k.val, by omega⟩ + ∑ k : Fin n, f ⟨n + k.val, by omega⟩)
      + ∑ k : Fin n, f ⟨n + n + k.val, by omega⟩ := by
  rw [Fin.sum_univ_add, Fin.sum_univ_add]
  rfl

/-- The three blocks of a sum over the joined axis of length 6144. -/
theorem sum_6144 {M : Type*} [AddCommMonoid M] (f : Fin 6144 → M) :
    ∑ k, f k = (∑ k : Fin 2048, f ⟨k.val, by omega⟩ + ∑ k : Fin 2048, f ⟨2048 + k.val, by omega⟩)
      + ∑ k : Fin 2048, f ⟨4096 + k.val, by omega⟩ :=
  sum_three_blocks 2048 f

theorem cat3_block0 (f0 f1 f2 : Fin 2048 → EReal) (k : Fin 2048) :
    cat3 f0 f1 f2 ⟨k.val, by omega⟩ = f0 k := by
  unfold cat3
  rw [dif_pos k.isLt]

theorem cat3_block1 (f0 f1 f2 : Fin 2048 → EReal) (k : Fin 2048) :
    cat3 f0 f1 f2 ⟨2048 + k.val, by omega⟩ = f1 k := by
  have hk := k.isLt
  unfold cat3
  rw [dif_neg (by simp), dif_pos (by simp; omega)]
  exact congrArg f1 (Fin.ext (by simp))

theorem cat3_block2 (f0 f1 f2 : Fin 2048 → EReal) (k : Fin 2048) :
    cat3 f0 f1 f2 ⟨4096 + k.val, by omega⟩ = f2 k := by
  have hk := k.isLt
  unfold cat3
  rw [dif_neg (by simp; omega), dif_neg (by simp)]
  exact congrArg f2 (Fin.ext (by simp))

/-- A joined vector of reals is real. -/
theorem cat3_real (f0 f1 f2 : Fin 2048 → EReal)
    (h0 : ∀ k, ∃ r : ℝ, f0 k = (r : EReal)) (h1 : ∀ k, ∃ r : ℝ, f1 k = (r : EReal))
    (h2 : ∀ k, ∃ r : ℝ, f2 k = (r : EReal)) (k : Fin 6144) : ∃ r : ℝ, cat3 f0 f1 f2 k = (r : EReal) := by
  unfold cat3
  split_ifs
  · exact h0 _
  · exact h1 _
  · exact h2 _

/-- A contraction of a joined vector against a weight column is the sum of the three contractions of its
    parts against the three row blocks of that column. -/
theorem sum_cat3 {c : Nat} (f0 f1 f2 : Fin 2048 → EReal) (w : Arr2 6144 c) (j : Fin c) :
    ∑ k : Fin 6144, cat3 f0 f1 f2 k * w (ix2 k j)
      = (∑ k : Fin 2048, f0 k * w (ix2 (⟨k.val, by omega⟩ : Fin 6144) j)
          + ∑ k : Fin 2048, f1 k * w (ix2 (⟨2048 + k.val, by omega⟩ : Fin 6144) j))
        + ∑ k : Fin 2048, f2 k * w (ix2 (⟨4096 + k.val, by omega⟩ : Fin 6144) j) := by
  rw [sum_6144]
  simp only [cat3_block0, cat3_block1, cat3_block2]

/-! ### The packed weights -/

/-- Column `5 b + j` (`j < 3`) of row `k` of the packed array is gate weight `(2048 b + k, j)`. -/
theorem packW_gate (w3 : Arr2 6144 3) (w5 : Arr2 6144 2) (k : Fin 2048) (c : Fin 15) (b : Nat) (j : Fin 3)
    (r : Fin 6144) (hc : c.val = 5 * b + j.val) (hr : r.val = 2048 * b + k.val) :
    packW w3 w5 (ix2 k c) = w3 (ix2 r j) := by
  have hj := j.isLt
  have h : c.val % 5 < 3 := by omega
  unfold packW
  show (if h : c.val % 5 < 3
    then w3 (ix2 (⟨2048 * (c.val / 5) + k.val, by omega⟩ : Fin 6144) (⟨c.val % 5, h⟩ : Fin 3))
    else w5 (ix2 (⟨2048 * (c.val / 5) + k.val, by omega⟩ : Fin 6144) (⟨c.val % 5 - 3, by omega⟩ : Fin 2))) = _
  rw [dif_pos h]
  have e1 : (⟨2048 * (c.val / 5) + k.val, by omega⟩ : Fin 6144) = r := Fin.ext (by simp only; omega)
  have e2 : (⟨c.val % 5, h⟩ : Fin 3) = j := Fin.ext (by simp only; omega)
  rw [e1, e2]

/-- Column `5 b + 3 + q` (`q < 2`) of row `k` of the packed array is classifier weight `(2048 b + k, q)`. -/
theorem packW_cls (w3 : Arr2 6144 3) (w5 : Arr2 6144 2) (k : Fin 2048) (c : Fin 15) (b : Nat) (q : Fin 2)
    (r : Fin 6144) (hc : c.val = 5 * b + 3 + q.val) (hr : r.val = 2048 * b + k.val) :
    packW w3 w5 (ix2 k c) = w5 (ix2 r q) := by
  have hq := q.isLt
  have h : ¬ c.val % 5 < 3 := by omega
  unfold packW
  show (if h : c.val % 5 < 3
    then w3 (ix2 (⟨2048 * (c.val / 5) + k.val, by omega⟩ : Fin 6144) (⟨c.val % 5, h⟩ : Fin 3))
    else w5 (ix2 (⟨2048 * (c.val / 5) + k.val, by omega⟩ : Fin 6144) (⟨c.val % 5 - 3, by omega⟩ : Fin 2))) = _
  rw [dif_neg h]
  have e1 : (⟨2048 * (c.val / 5) + k.val, by omega⟩ : Fin 6144) = r := Fin.ext (by simp only; omega)
  have e2 : (⟨c.val % 5 - 3, by omega⟩ : Fin 2) = q := Fin.ext (by simp only; omega)
  rw [e1, e2]

/-! ### The two arrangements agree -/

/-- One band of the packed array, gate columns: the contraction of a part against column `5 b + j` is its
    contraction against row block `b` of gate column `j`. -/
theorem bandDot_gate (w3 : Arr2 6144 3) (w5 : Arr2 6144 2) (a : Fin 2048 → EReal) (c : Fin 15) (b : Nat)
    (j : Fin 3) (hb : b < 3) (hc : c.val = 5 * b + j.val) :
    bandDot a (packW w3 w5) c
      = ∑ k : Fin 2048, a k * w3 (ix2 (⟨2048 * b + k.val, by omega⟩ : Fin 6144) j) := by
  unfold bandDot
  exact Finset.sum_congr rfl fun k _ => congrArg (a k * ·) (packW_gate w3 w5 k c b j _ hc rfl)

/-- One band of the packed array, classifier columns. -/
theorem bandDot_cls (w3 : Arr2 6144 3) (w5 : Arr2 6144 2) (a : Fin 2048 → EReal) (c : Fin 15) (b : Nat)
    (q : Fin 2) (hb : b < 3) (hc : c.val = 5 * b + 3 + q.val) :
    bandDot a (packW w3 w5) c
      = ∑ k : Fin 2048, a k * w5 (ix2 (⟨2048 * b + k.val, by omega⟩ : Fin 6144) q) := by
  unfold bandDot
  exact Finset.sum_congr rfl fun k _ => congrArg (a k * ·) (packW_cls w3 w5 k c b q _ hc rfl)

/-- The kernel's gate is the reference's gate: the three partial scores against the packed bands add up to the
    score of the joined vector. -/
theorem gateOut_eq (a0 a1 a2 : Fin 2048 → EReal) (w3 : Arr2 6144 3) (b4 : Arr1 3) (w5 : Arr2 6144 2) :
    gateOut a0 a1 a2 (packW w3 w5) (asRow b4)
      = softmax fun j => (∑ k : Fin 6144, cat3 a0 a1 a2 k * w3 (ix2 k j)) + b4 (ix1 j) := by
  unfold gateOut
  refine congrArg softmax (funext fun j => ?_)
  rw [sum_cat3, bandDot_gate w3 w5 a0 _ 0 j (by omega) (by simp),
    bandDot_gate w3 w5 a1 _ 1 j (by omega) (by simp), bandDot_gate w3 w5 a2 _ 2 j (by omega) (by simp)]
  rfl

theorem rowOut_eq_refRow (a0 a1 a2 : Fin 2048 → EReal) (w3 : Arr2 6144 3) (b4 : Arr1 3) (w5 : Arr2 6144 2) (b6 : Arr1 2)
    (h0 : ∀ k, ∃ r : ℝ, a0 k = (r : EReal)) (h1 : ∀ k, ∃ r : ℝ, a1 k = (r : EReal)) (h2 : ∀ k, ∃ r : ℝ, a2 k = (r : EReal))
    (hw3 : ∀ i, ∃ r : ℝ, w3 i = (r : EReal)) (hb4 : ∀ i, ∃ r : ℝ, b4 i = (r : EReal))
    (hw5 : ∀ i, ∃ r : ℝ, w5 i = (r : EReal)) (hb6 : ∀ i, ∃ r : ℝ, b6 i = (r : EReal)) (q : Fin 2) :
    rowOut a0 a1 a2 (packW w3 w5) (asRow b4) (asRow b6) q = refRow a0 a1 a2 w3 b4 w5 b6 q := by
  -- the common gate, and its values are real
  have hG : ∀ j, ∃ r : ℝ,
      softmax (fun j => (∑ k : Fin 6144, cat3 a0 a1 a2 k * w3 (ix2 k j)) + b4 (ix1 j)) j = (r : EReal) :=
    fun j => softmax_real _ (fun j' => by
      obtain ⟨s, hs⟩ := real_sum_mul Finset.univ (cat3 a0 a1 a2) (fun k => w3 (ix2 k j'))
        (cat3_real a0 a1 a2 h0 h1 h2) (fun k => hw3 _)
      obtain ⟨t, ht⟩ := hb4 (ix1 j')
      exact ⟨s + t, by rw [hs, ht, EReal.coe_add]⟩) j
  unfold rowOut refRow
  rw [gateOut_eq]
  refine congrFun (congrArg softmax (funext fun q' => ?_)) q
  rw [sum_cat3, bandDot_cls w3 w5 a0 _ 0 q' (by omega) (by simp),
    bandDot_cls w3 w5 a1 _ 1 q' (by omega) (by simp), bandDot_cls w3 w5 a2 _ 2 q' (by omega) (by simp),
    mul_sum_real Finset.univ _ a0 _ (hG 0) h0 (fun k => hw5 _),
    mul_sum_real Finset.univ _ a1 _ (hG 1) h1 (fun k => hw5 _),
    mul_sum_real Finset.univ _ a2 _ (hG 2) h2 (fun k => hw5 _)]
  rfl

end Cert.Fusion

end
-- ==== Proof.FinitePre.lean ====
/-
  From the precondition to real-valued inputs.

  The precondition evaluates, for each of the seven argument arrays, the conjunction over all entries of
  |x| < +∞, and states that the conjunction of the seven results is true.  A conjunction of truth values is true
  only if every conjunct is, so each entry x of each array satisfies max x (-x) < ⊤ in the extended reals (the
  bit pattern 0x7F800000 denotes ⊤).  Neither ⊤ nor ⊥ satisfies this (the larger of ±∞ and its negation is ⊤), so
  x is a real number.
-/
import proofs.«105733_j44985487458840_2_alg».proof.Defs
import proofs.«105733_j44985487458840_2_alg».proof.Proof.Gen.Pre_finite_inputs
import Idealize.ShloMosaic.Lib.ReduceAll
import Idealize.ShloMosaic.Lib.ValueIdx
import Mathlib.Data.EReal.Basic

noncomputable section

namespace Cert.KernelIdeal.FinitePre

open Idealize.ShloMosaic Idealize.SL.Sem
open Cert.Pre_finite_inputs (S_)

/-- The rank-0 shape has one index. -/
instance : Subsingleton S_.Idx := ⟨fun a b => funext fun d => d.elim0⟩

/-- The bit pattern of +∞ denotes ⊤. -/
theorem inf_bits : Ideal.ofBits .f32 0x7F800000#32 = (⊤ : EReal) := by
  simp [Ideal.ofBits, Ideal.ieee]

/-- An extended real whose absolute value is below +∞ is a real. -/
theorem real_of_abs_lt (x : EReal)
    (e : Ideal.cmp .olt (max x (-x)) (Ideal.ofBits .f32 0x7F800000#32) = 1#1) : ∃ r : ℝ, x = (r : EReal) := by
  rw [inf_bits] at e
  unfold Ideal.cmp at e
  induction x using EReal.rec with
  | bot => simp at e
  | coe r => exact ⟨r, rfl⟩
  | top => simp at e

/-- A pointwise conjunction is true at an index only if both operands are. -/
theorem vandi_eq_one {s : Shape} (x y : IVec s 1) (i : s.Idx) :
    andi x y i = 1#1 ↔ x i = 1#1 ∧ y i = 1#1 := IntOp.andi_eq_one

/-- One array: if the conjunction over all entries of |x| < +∞ is true, every entry is a real. -/
theorem real_of_all {s : Shape} {axes : List (Fin s.rank)} (X : FVec Ideal s .f32)
    (hb : S_.BroadcastsInDim s (![] : Fin 0 → Fin s.rank)) (hr : s.ReducesTo axes S_) (hu : 0 < S_.numel)
    (e : Host.reduce IntOp.andi
        (cmpf .olt (Host.absf X) (broadcastInDim s ![] hb (constant S_ .f32 0x7F800000#32)))
        (constantI S_ 1 1#1) hr hu ValueIdx.ix0 = 1#1) (i : s.Idx) :
    ∃ r : ℝ, X i = (r : EReal) :=
  real_of_abs_lt (X i) (Host.reduce_andi_all _ _ hr hu ValueIdx.ix0 e i)

/-- Under the precondition every entry of every argument array is a real. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) := by
  have h0 := congrFun (h c) ValueIdx.ix0
  dsimp only [Cert.Pre_finite_inputs.fn, Cert.Pre_finite_inputs.fn_part1] at h0
  obtain ⟨h05, e6⟩ := (vandi_eq_one _ _ _).1 h0
  obtain ⟨h04, e5⟩ := (vandi_eq_one _ _ _).1 h05
  obtain ⟨h03, e4⟩ := (vandi_eq_one _ _ _).1 h04
  obtain ⟨h02, e3⟩ := (vandi_eq_one _ _ _).1 h03
  obtain ⟨h01, e2⟩ := (vandi_eq_one _ _ _).1 h02
  obtain ⟨e0, e1⟩ := (vandi_eq_one _ _ _).1 h01
  exact ⟨real_of_all _ _ _ _ e0, real_of_all _ _ _ _ e1, real_of_all _ _ _ _ e2, real_of_all _ _ _ _ e3,
    real_of_all _ _ _ _ e4, real_of_all _ _ _ _ e5, real_of_all _ _ _ _ e6⟩

end Cert.KernelIdeal.FinitePre

end
-- ==== Proof.lean ====
/-
  The certificate of a fused gate-and-classify kernel against its reference.

  Per row of the batch both programs compute: a gate, the softmax of three affine scores of the three feature vectors
  joined, and then the softmax of two affine scores of the three vectors, each scaled by its gate value, joined.  The
  reference contracts the joined vector of length 6144 against the weight matrices.  The kernel contracts each vector
  of length 2048 against its own five columns of one packed weight array, adds the partial gate scores, and applies
  the gate to the partial classifier scores rather than to the features.

  The two agree on the extended reals when every input is a real number: splitting a sum over 6144 indices into three
  blocks of 2048 needs nothing, and taking the gate factor out of a block's sum is distributivity, which holds for
  reals (the gate, a softmax of real scores, is real).  The precondition says exactly that every input is finite.

  The pieces: each kernel program's frame (it runs to the end without a fault and leaves its arguments as they were);
  the kernel's result array as one function of the arguments (block by block, then the blocks tile the array); the
  reference's result read at an index; the law between the two arrangements; the reals out of the precondition.
  The idealized kernel is the kernel's own text read over the extended reals, so there is nothing to preserve.
-/
import proofs.«105733_j44985487458840_2_alg».proof.Defs
import proofs.«105733_j44985487458840_2_alg».proof.Proof.Gen.Kernel
import proofs.«105733_j44985487458840_2_alg».proof.Proof.Gen.KernelIdeal
import proofs.«105733_j44985487458840_2_alg».proof.Proof.Gen.ReferenceIdeal
import proofs.«105733_j44985487458840_2_alg».proof.Proof.Gen.Pre_finite_inputs
import proofs.«105733_j44985487458840_2_alg».proof.Proof.FrameKernel
import proofs.«105733_j44985487458840_2_alg».proof.Proof.FrameKernelIdeal
import proofs.«105733_j44985487458840_2_alg».proof.Proof.KernelValue
import proofs.«105733_j44985487458840_2_alg».proof.Proof.RefRunP
import proofs.«105733_j44985487458840_2_alg».proof.Proof.RefReadP
import proofs.«105733_j44985487458840_2_alg».proof.Proof.RefRow
import proofs.«105733_j44985487458840_2_alg».proof.Proof.Algebra
import proofs.«105733_j44985487458840_2_alg».proof.Proof.FinitePre
import Idealize.ShloMosaic.Adequacy
import Idealize.ShloMosaic.Init

set_option maxRecDepth 16384

noncomputable section

namespace Cert.Proof

open Idealize.ShloMosaic Idealize.SL.Sem Idealize.ShloMosaic.ValueIdx

/-- The kernel as printed runs to the end and leaves its arguments unchanged. -/
theorem frame_kernel : Cert.frame_Kernel := fun m ρ _ => Cert.Kernel.Hand.frame m ρ

/-- So does the kernel read over the extended reals. -/
theorem frame_kernelIdeal : Cert.frame_KernelIdeal := fun m ρ _ => Cert.KernelIdeal.Hand.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- The common result: row `r`, column `q` is the reference's row function of row `r` of the feature arrays. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v12) := fun i =>
  Cert.Fusion.refRow
    (Cert.KernelIdeal.Whole.rowOf (m ((c.tc : Thread Cert.KernelIdeal.nD Cert.KernelIdeal.τ).loc Cert.KernelIdeal.main_arg0)) ⟨(i 0).val, (i 0).isLt⟩) (Cert.KernelIdeal.Whole.rowOf (m ((c.tc : Thread Cert.KernelIdeal.nD Cert.KernelIdeal.τ).loc Cert.KernelIdeal.main_arg1)) ⟨(i 0).val, (i 0).isLt⟩)
    (Cert.KernelIdeal.Whole.rowOf (m ((c.tc : Thread Cert.KernelIdeal.nD Cert.KernelIdeal.τ).loc Cert.KernelIdeal.main_arg2)) ⟨(i 0).val, (i 0).isLt⟩)
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) ⟨(i 1).val, (i 1).isLt⟩

/-- Both idealized programs, from memories agreeing on the arguments, end with `result`. -/
theorem algebraic : Cert.algebraic_KernelIdeal_ReferenceIdeal := by
  intro m ρ m' ρ' hpre hagree
  refine ⟨fun c => result m c, ?_, ?_⟩
  · -- the kernel: its result array is the kernel's arrangement of the row function; the inputs are real, so the law applies
    refine (θ_run Cert.KernelIdeal.defs _ _).mono (fun r h c => ⟨(h c).1.trans ?_, (h c).2⟩) (Cert.KernelIdeal.Whole.run m ρ)
    rw [Cert.KernelIdeal.Whole.wholeOut_eq]
    obtain ⟨f0, f1, f2, f3, f4, f5, f6⟩ := Cert.KernelIdeal.FinitePre.real_of_pre m hpre c
    funext i
    exact Cert.Fusion.rowOut_eq_refRow _ _ _ _ _ _ _ (fun k => f0 _) (fun k => f1 _) (fun k => f2 _) f3 f4 f5 f6 _
  · -- the reference: its run's term, read at an index, is the row function of the same arguments
    refine (θ_run Cert.ReferenceIdeal.defs _ _).mono (fun r h c => ⟨(h c).1.trans ?_, (h c).2⟩) (Cert.ReferenceIdeal.ValueP.run (F := Ideal) m' ρ')
    rw [Cert.ReferenceIdeal.ReadP.val_main_v40_eq, (hagree c).1, (hagree c).2.1, (hagree c).2.2.1, (hagree c).2.2.2.1, (hagree c).2.2.2.2.1,
      (hagree c).2.2.2.2.2.1, (hagree c).2.2.2.2.2.2]
    funext i
    obtain ⟨r, q, rfl⟩ : ∃ (r : Fin 16384) (q : Fin 2), i = ix2 r q := ⟨i 0, i 1, eq_ix2 i⟩
    exact Cert.ReferenceIdeal.RefRow.ref_apply _ _ _ _ _ _ _ r q

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
